-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_
  bcast_S_S11008x16 : S_.BroadcastsInDim S11008x16 (![] : Fin 0 → Fin S11008x16.rank)
  reducesTo_S11008x16_S_d0_1 : S11008x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S16x4096 .f32) (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  let main_v19 : FVec F S16x4096 .f32 := Host.absf main_arg4
  let main_cst_6 : FVec F S_ .f32 := constant S_ .f32 0x7F800000#32
  let main_v20 : FVec F S16x4096 .f32 := broadcastInDim S16x4096 ![] bcast_S_S16x4096 main_cst_6
  let main_v21 : IVec S16x4096 1 := cmpf .olt main_v19 main_v20
  let main_c_7 : IVec S_ 1 := constantI S_ 1 1#1
  let main_v22 : IVec S_ 1 := (fun x v => Host.reduce IntOp.andi x v reducesTo_S16x4096_S_d0_1 h_S_) main_v21 main_c_7
  let main_v23 : IVec S_ 1 := andi main_v18 main_v22
  main_v23

def fn {F : FTy → Type} [FloatOps F] (main_arg0 : FVec F S8192x4096 .f32) (main_arg1 : FVec F S11008x4096 .f32) (main_arg2 : FVec F S11008 .f32) (main_arg3 : FVec F S11008x16 .f32) (main_arg4 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008x16 .f32 := Host.absf main_arg3
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_arg4 main_v13 main_v16
-- ==== Kernel.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S_ : Shape := ⟨0, ![]⟩
abbrev S11264x4096 : Shape := ⟨2, ![11264, 4096]⟩
abbrev S11264 : Shape := ⟨1, ![11264]⟩
abbrev S11264x16 : Shape := ⟨2, ![11264, 16]⟩
abbrev S1x11264 : Shape := ⟨2, ![1, 11264]⟩
abbrev S4096x16 : Shape := ⟨2, ![4096, 16]⟩
abbrev S8192x16 : Shape := ⟨2, ![8192, 16]⟩
abbrev S8192x11264 : Shape := ⟨2, ![8192, 11264]⟩
abbrev S2048x512 : Shape := ⟨2, ![2048, 512]⟩
abbrev S512x512 : Shape := ⟨2, ![512, 512]⟩
abbrev S1x512 : Shape := ⟨2, ![1, 512]⟩
abbrev S512x16 : Shape := ⟨2, ![512, 16]⟩
abbrev S2048x16 : Shape := ⟨2, ![2048, 16]⟩
abbrev S16x512 : Shape := ⟨2, ![16, 512]⟩
abbrev S8192x11008 : Shape := ⟨2, ![8192, 11008]⟩

abbrev nBuf : Space → Nat
  | .hbm => 21
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x16, .f32⟩
  | .hbm, ⟨4, _⟩ => ⟨S16x4096, .f32⟩
  | .hbm, ⟨5, _⟩ => ⟨S_, .i32⟩
  | .hbm, ⟨6, _⟩ => ⟨S_, .f32⟩
  | .hbm, ⟨7, _⟩ => ⟨S11264x4096, .f32⟩
  | .hbm, ⟨8, _⟩ => ⟨S_, .i32⟩
  | .hbm, ⟨9, _⟩ => ⟨S_, .f32⟩
  | .hbm, ⟨10, _⟩ => ⟨S11264, .f32⟩
  | .hbm, ⟨11, _⟩ => ⟨S_, .i32⟩
  | .hbm, ⟨12, _⟩ => ⟨S_, .f32⟩
  | .hbm, ⟨13, _⟩ => ⟨S11264x16, .f32⟩
  | .hbm, ⟨14, _⟩ => ⟨S8192x4096, .bf16⟩
  | .hbm, ⟨15, _⟩ => ⟨S11264x4096, .bf16⟩
  | .hbm, ⟨16, _⟩ => ⟨S1x11264, .f32⟩
  | .hbm, ⟨17, _⟩ => ⟨S4096x16, .f32⟩
  | .hbm, ⟨18, _⟩ => ⟨S8192x16, .f32⟩
  | .hbm, ⟨19, _⟩ => ⟨S8192x11264, .f32⟩
  | .hbm, ⟨20, _⟩ => ⟨S8192x11008, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x16, .f32⟩
  | .local _ .vmem, ⟨7, _⟩ => ⟨S512x16, .f32⟩
  | .local _ .vmem, ⟨8, _⟩ => ⟨S2048x16, .f32⟩
  | .local _ .vmem, ⟨9, _⟩ => ⟨S2048x16, .f32⟩
  | .local _ .vmem, ⟨10, _⟩ => ⟨S2048x512, .f32⟩
  | .local _ .vmem, ⟨11, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 22, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  pads_S11008x4096_S11264x4096_02560_000 : S11008x4096.Pads (![0, 0] : Fin 2 → Nat) ![256, 0] ![0, 0] S11264x4096
  h_S_ : 0 < S_.numel
  pads_S11008_S11264_02560 : S11008.Pads (![0] : Fin 1 → Nat) ![256] ![0] S11264
  pads_S11008x16_S11264x16_02560_000 : S11008x16.Pads (![0, 0] : Fin 2 → Nat) ![256, 0] ![0, 0] S11264x16
  bitsLt_bf16_f32 : FTy.bits .bf16 < FTy.bits .f32
  shapeCasts_S11264_S1x11264 : S11264.ShapeCasts S1x11264
  transposes_S16x4096_S4096x16_1_0 : S16x4096.Transposes [1, 0] S4096x16
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  transposes_S512x16_p1_0_S16x512 : S512x16.Transposes [1, 0] S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S8192x11264_S8192x11008_0_0 : S8192x11264.Slices ![0, 0] S8192x11008
  dot_S8192x4096_S4096x16_S8192x16_1_0_0_1_n_n_wf : DotDims.WF S8192x4096 S4096x16 S8192x16 [1] [0] [0] [1] [] []
  dot_S2048x512_S512x512_S2048x512_1_0_0_1_n_n_wf : DotDims.WF S2048x512 S512x512 S2048x512 [1] [0] [0] [1] [] []
  dot_S2048x16_S16x512_S2048x512_1_0_0_1_n_n_wf : DotDims.WF S2048x16 S16x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S11264x4096.size a
  hwx0_1 : ∀ i : grid0.Coords, EltTy.bits .bf16 = 32 ∨ (Rect.block (s := S11264x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x11264.size a
  hwx0_2 : ∀ i : grid0.Coords, EltTy.bits .f32 = 32 ∨ (Rect.block (s := S1x11264) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S11264x16.size a
  hwx0_3 : ∀ i : grid0.Coords, EltTy.bits .f32 = 32 ∨ (Rect.block (s := S11264x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x16.size a ≤ S8192x16.size a
  hwx0_4 : ∀ i : grid0.Coords, EltTy.bits .f32 = 32 ∨ (Rect.block (s := S8192x16) S2048x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x11264.size a
  hwx0_5 : ∀ i : grid0.Coords, EltTy.bits .f32 = 32 ∨ (Rect.block (s := S8192x11264) S2048x512.size (cc0_transform_5 i) (hinb0_5 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf

abbrev win0_0 : Pipeline.Window sig grid0 :=
  Pipeline.Window.ofSpec (Memref.whole main_v3) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S11008x16 : Shape := ⟨2, ![11008, 16]⟩
abbrev S16x4096 : Shape := ⟨2, ![16, 4096]⟩
abbrev S4096x11008 : Shape := ⟨2, ![4096, 11008]⟩
abbrev S8192x11008 : Shape := ⟨2, ![8192, 11008]⟩
abbrev S1x11008 : Shape := ⟨2, ![1, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x16, .f32⟩
  | .hbm, ⟨4, _⟩ => ⟨S16x4096, .f32⟩
  | .hbm, ⟨5, _⟩ => ⟨S11008x4096, .f32⟩
  | .hbm, ⟨6, _⟩ => ⟨S4096x11008, .f32⟩
  | .hbm, ⟨7, _⟩ => ⟨S8192x11008, .f32⟩
  | .hbm, ⟨8, _⟩ => ⟨S1x11008, .f32⟩
  | .hbm, ⟨9, _⟩ => ⟨S8192x11008, .f32⟩
  | .hbm, ⟨10, _⟩ => ⟨S8192x11008, .f32⟩
  | .hbm, ⟨11, _⟩ => ⟨S4096x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  bcast_S_S8192x11008 : S_.BroadcastsInDim S8192x11008 (![] : Fin 0 → Fin S8192x11008.rank)
  dot_S11008x16_S16x4096_S11008x4096_1_0_0_1_n_n_wf : DotDims.WF S11008x16 S16x4096 S11008x4096 [1] [0] [0] [1] [] []
  dot_S8192x4096_S4096x11008_S8192x11008_1_0_0_1_n_n_wf : DotDims.WF S8192x4096 S4096x11008 S8192x11008 [1] [0] [0] [1] [] []

variable [Facts₀]

def dot_S11008x16_S16x4096_S11008x4096_1_0_0_1_n_n : DotDims S11008x16 S16x4096 S11008x4096 where
  lhsContracting := [1]
  rhsContracting := [0]
  lhsNonContracting := [0]
  rhsNonContracting := [1]
  lhsBatch := []
  rhsBatch := []
  wf := dot_S11008x16_S16x4096_S11008x4096_1_0_0_1_n_n_wf
def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The result both programs compute, entry by entry, as a function of the five argument arrays
  x [8192, 4096], W [11008, 4096], bias [11008], B [11008, 16], A [16, 4096] and of the scale c:

      out (m, n) = (Σ_k x (m, k) · W (n, k) + bias n) + (low-rank term at (m, n)) · c .

  The low-rank term is written in two arrangements. `viaDelta` first forms the full-rank update
  Δ (n, k) = Σ_r B (n, r) · A (r, k) and then contracts it with the row of x over the 4096 columns;
  `viaProj` first projects the row of x onto the 16 rank directions, xA (m, r) = Σ_k x (m, k) · A (r, k),
  and then contracts with the row of B over the 16 directions. Over the reals the two are one number
  (a finite double sum taken in either order); over the extended reals that needs the entries of x, A and B
  to be finite, since a product does not distribute over a sum that holds an infinity.
-/
import Idealize.ShloMosaic.PureOps.Ideal
import Idealize.ShloMosaic.Lib.ValueIdx

noncomputable section

namespace Cert.LoraSpec

open Idealize.ShloMosaic Idealize.ShloMosaic.ValueIdx

abbrev ShX : Shape := ⟨2, ![8192, 4096]⟩
abbrev ShW : Shape := ⟨2, ![11008, 4096]⟩
abbrev Shb : Shape := ⟨1, ![11008]⟩
abbrev ShB : Shape := ⟨2, ![11008, 16]⟩
abbrev ShA : Shape := ⟨2, ![16, 4096]⟩
abbrev ShO : Shape := ⟨2, ![8192, 11008]⟩

/-- The dense part: row m of x against row n of W, plus the bias of column n. -/
def dense (x : ShX.Idx → EReal) (W : ShW.Idx → EReal) (b : Shb.Idx → EReal) (m : Fin 8192) (n : Fin 11008) : EReal :=
  ∑ k : Fin 4096, x (ix2 m k) * W (ix2 n k) + b (ix1 n)

/-- The low-rank term through the full-rank update Δ = B · A. -/
def lowDelta (x : ShX.Idx → EReal) (B : ShB.Idx → EReal) (A : ShA.Idx → EReal) (m : Fin 8192) (n : Fin 11008) : EReal :=
  ∑ k : Fin 4096, x (ix2 m k) * ∑ r : Fin 16, B (ix2 n r) * A (ix2 r k)

/-- The low-rank term through the projection xA = x · Aᵀ. -/
def lowProj (x : ShX.Idx → EReal) (B : ShB.Idx → EReal) (A : ShA.Idx → EReal) (m : Fin 8192) (n : Fin 11008) : EReal :=
  ∑ r : Fin 16, (∑ k : Fin 4096, x (ix2 m k) * A (ix2 r k)) * B (ix2 n r)

/-- The result, the low-rank term taken through Δ. -/
def viaDelta (c : EReal) (x : ShX.Idx → EReal) (W : ShW.Idx → EReal) (b : Shb.Idx → EReal) (B : ShB.Idx → EReal)
    (A : ShA.Idx → EReal) : ShO.Idx → EReal :=
  fun i => dense x W b (i 0) (i 1) + lowDelta x B A (i 0) (i 1) * c

/-- The result, the low-rank term taken through the projection. -/
def viaProj (c : EReal) (x : ShX.Idx → EReal) (W : ShW.Idx → EReal) (b : Shb.Idx → EReal) (B : ShB.Idx → EReal)
    (A : ShA.Idx → EReal) : ShO.Idx → EReal :=
  fun i => dense x W b (i 0) (i 1) + lowProj x B A (i 0) (i 1) * c

end Cert.LoraSpec

end
-- ==== Proof.Algebra.lean ====
/-
  The two arrangements of the low-rank term are one number when the entries of x, B and A are real.

  Over the reals the identity is the exchange of a finite double sum:

      Σ_r (Σ_k x k · a r k) · b r  =  Σ_k x k · (Σ_r b r · a r k),

  both sides being Σ_r Σ_k x k · a r k · b r after distributing. Over the extended reals a product
  does not distribute over a sum that holds an infinity, so the entries are first written as
  coercions of reals; the coercion commutes with products and with finite sums, which carries the
  whole expression into the reals, where the exchange applies. The scale c is never evaluated: it
  multiplies two equal numbers.
-/
import proofs.«135984_j44006234915015_2_alg».proof.Proof.Spec
import Mathlib.Data.EReal.Basic
import Mathlib.Algebra.BigOperators.Ring.Finset
import Mathlib.Tactic.Ring

noncomputable section

namespace Cert.LoraSpec

open Idealize.ShloMosaic Idealize.ShloMosaic.ValueIdx

/-- The coercion of the reals into the extended reals carries a finite sum to the sum of the coercions. -/
theorem coe_real_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- The exchange of the double sum over the reals: contracting the projections of x with b over the
    rank directions is contracting x with the full-rank update over the columns. -/
theorem real_proj_eq_delta {κ ρ : Type} [Fintype κ] [Fintype ρ] (x : κ → ℝ) (b : ρ → ℝ) (a : ρ → κ → ℝ) :
    ∑ r, (∑ k, x k * a r k) * b r = ∑ k, x k * ∑ r, b r * a r k := by
  simp only [Finset.sum_mul, Finset.mul_sum]
  rw [Finset.sum_comm]
  refine Finset.sum_congr rfl fun k _ => Finset.sum_congr rfl fun r _ => ?_
  ring

/-- The low-rank term through the projection is the low-rank term through the full-rank update,
    when every entry of x, B and A is a real number. -/
theorem lowProj_eq_lowDelta (x : ShX.Idx → EReal) (B : ShB.Idx → EReal) (A : ShA.Idx → EReal)
    (hx : ∀ i, ∃ r : ℝ, x i = (r : EReal)) (hB : ∀ i, ∃ r : ℝ, B i = (r : EReal))
    (hA : ∀ i, ∃ r : ℝ, A i = (r : EReal)) (m : Fin 8192) (n : Fin 11008) :
    lowProj x B A m n = lowDelta x B A m n := by
  choose x' hx' using hx
  choose B' hB' using hB
  choose A' hA' using hA
  unfold lowProj lowDelta
  simp only [hx', hB', hA', ← EReal.coe_mul, ← coe_real_sum]
  rw [real_proj_eq_delta (fun k : Fin 4096 => x' (ix2 m k)) (fun r : Fin 16 => B' (ix2 n r))
    (fun (r : Fin 16) (k : Fin 4096) => A' (ix2 r k))]

/-- The result through the projection is the result through the full-rank update, entry by entry,
    under the same hypothesis. -/
theorem viaProj_eq_viaDelta (c : EReal) (x : ShX.Idx → EReal) (W : ShW.Idx → EReal) (b : Shb.Idx → EReal)
    (B : ShB.Idx → EReal) (A : ShA.Idx → EReal)
    (hx : ∀ i, ∃ r : ℝ, x i = (r : EReal)) (hB : ∀ i, ∃ r : ℝ, B i = (r : EReal))
    (hA : ∀ i, ∃ r : ℝ, A i = (r : EReal)) :
    viaProj c x W b B A = viaDelta c x W b B A := by
  funext i
  unfold viaProj viaDelta
  rw [lowProj_eq_lowDelta x B A hx hB hA (i 0) (i 1)]

end Cert.LoraSpec

end
-- ==== Proof.RefSide.lean ====
/-
  The reference program computes the specification's result with the low-rank term taken through
  the full-rank update.

  Read entry by entry, the reference forms Δ (n, k) = Σ_r B (n, r) · A (r, k), transposes W and Δ so
  that the contraction runs over their first axis, contracts row m of x against column n of each,
  adds the bias of column n to the dense part, multiplies the low-rank part by the scale and adds the
  two. Each transpose and broadcast only renames the index at which an argument array is read, so
  the proof is a list of index identities — which entry of x, W, bias, B and A the composed index
  maps select at output entry (m, n), contraction positions k and r — followed by unfolding the
  operations at the extended reals, where addition and multiplication are the field operations.
  The scale stays the same word on both sides and is never evaluated.
-/
import proofs.«135984_j44006234915015_2_alg».proof.Proof.Spec
import proofs.«135984_j44006234915015_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The dense contraction reads x at row m, column k. -/
theorem dense_reads_x (m : Fin 8192) (n : Fin 11008) (k : Fin 4096) :
    lidx_main_v2 (ix2 m n) k = ix2 m k :=
  funext fun a => Fin.ext (by match a with | ⟨0, _⟩ => rfl | ⟨1, _⟩ => rfl)

/-- Through the transpose, the dense contraction reads W at row n, column k. -/
theorem dense_reads_W (m : Fin 8192) (n : Fin 11008) (k : Fin 4096) :
    idx_main_v1 (ridx_main_v2 (ix2 m n) k) = ix2 n k :=
  funext fun a => Fin.ext (by match a with | ⟨0, _⟩ => rfl | ⟨1, _⟩ => rfl)

/-- Through the two broadcasts, the bias is read at column n. -/
theorem bias_read_at (m : Fin 8192) (n : Fin 11008) :
    idx_main_v3 (idx_main_v4 (ix2 m n)) = ix1 n :=
  funext fun a => Fin.ext (by match a with | ⟨0, _⟩ => rfl)

/-- The low-rank contraction reads x at row m, column k. -/
theorem low_reads_x (m : Fin 8192) (n : Fin 11008) (k : Fin 4096) :
    lidx_main_v7 (ix2 m n) k = ix2 m k :=
  funext fun a => Fin.ext (by match a with | ⟨0, _⟩ => rfl | ⟨1, _⟩ => rfl)

/-- Through the transpose of the full-rank update, its entry (n, k) reads B at row n, direction r. -/
theorem delta_reads_B (m : Fin 8192) (n : Fin 11008) (k : Fin 4096) (r : Fin 16) :
    lidx_main_v0 (idx_main_v6 (ridx_main_v7 (ix2 m n) k)) r = ix2 n r :=
  funext fun a => Fin.ext (by match a with | ⟨0, _⟩ => rfl | ⟨1, _⟩ => rfl)

/-- Through the transpose of the full-rank update, its entry (n, k) reads A at direction r, column k. -/
theorem delta_reads_A (m : Fin 8192) (n : Fin 11008) (k : Fin 4096) (r : Fin 16) :
    ridx_main_v0 (idx_main_v6 (ridx_main_v7 (ix2 m n) k)) r = ix2 r k :=
  funext fun a => Fin.ext (by match a with | ⟨0, _⟩ => rfl | ⟨1, _⟩ => rfl)

/-- The reference's result is the specification's, the low-rank term through the full-rank update,
    with the scale the reference's own constant. -/
theorem reference_eq (x0 : (⟨S8192x4096, .f32⟩ : BufTy).Contents (Elt Ideal))
    (x1 : (⟨S11008x4096, .f32⟩ : BufTy).Contents (Elt Ideal))
    (x2 : (⟨S11008, .f32⟩ : BufTy).Contents (Elt Ideal))
    (x3 : (⟨S11008x16, .f32⟩ : BufTy).Contents (Elt Ideal))
    (x4 : (⟨S16x4096, .f32⟩ : BufTy).Contents (Elt Ideal)) :
    Cert.ReferenceIdeal.Read.val_main_v10 (F := Ideal) x0 x1 x2 x3 x4
      = Cert.LoraSpec.viaDelta (Ideal.ofBits .f32 0x40000000#32) x0 x1 x2 x3 x4 := by
  funext i
  obtain ⟨m, n, rfl⟩ : ∃ (m : Fin 8192) (n : Fin 11008), i = ix2 m n := ⟨i 0, i 1, eq_ix2 i⟩
  rw [val_main_v10_apply, val_main_v5_apply, val_main_v2_apply, val_main_v4_apply, val_main_v3_apply,
    val_main_v9_apply, val_main_v7_apply, val_main_v8_apply, val_main_cst_apply]
  simp only [val_main_v1_apply, val_main_v6_apply, val_main_v0_apply]
  unfold Cert.LoraSpec.viaDelta Cert.LoraSpec.dense Cert.LoraSpec.lowDelta
  simp only [dense_reads_x, dense_reads_W, bias_read_at, low_reads_x, delta_reads_B, delta_reads_A,
    Ideal.addf_def, Ideal.mulf_def, Ideal.ofBits_def]

end Cert.ReferenceIdeal.RefValue

end
-- ==== Proof.Finite.lean ====
/-
  Under the precondition the entries of x, B and A are real numbers.

  The precondition says, of each of the five argument arrays, that every entry's absolute value is
  strictly below +∞, the five statements conjoined: entry by entry the comparison |e| < +∞ gives a
  bit, the bits of one array are combined by "and" over all its entries, and the five results are
  combined by "and" again; the precondition is that the final bit is one. An "and" that is one had
  both its operands one, so each array's bit is one, and then each entry's. Over the extended reals
  the absolute value of e is the larger of e and −e; if that is below +∞ then e is neither +∞ nor
  −∞, so it is the coercion of a real number.
-/
import proofs.«135984_j44006234915015_2_alg».proof.Defs
import proofs.«135984_j44006234915015_2_alg».proof.Proof.Gen.Pre_finite_inputs
import Idealize.ShloMosaic.Lib.ReduceAll
import Idealize.ShloMosaic.Lib.ValueIdx

noncomputable section

namespace Cert.KernelIdeal.Finite

open Idealize.ShloMosaic Idealize.ShloMosaic.TcCoe Idealize.SL.Sem Idealize.ShloMosaic.ValueIdx

/-- The shape with no axis has one index. -/
instance : Subsingleton (⟨0, ![]⟩ : Shape).Idx := ⟨fun a b => funext fun d => d.elim0⟩

/-- The word the precondition compares against denotes +∞. -/
theorem inf_word : Ideal.ofBits .f32 0x7F800000#32 = ⊤ := by simp [Ideal.ofBits, Ideal.ieee]

/-- A comparison's bit that is one says the compared statement holds. -/
theorem of_bit_eq_one {p : Prop} [Decidable p] (h : BitVec.ofBool (decide p) = 1#1) : p := by
  by_cases hp : p
  · exact hp
  · rw [decide_eq_false hp] at h
    exact absurd h (by decide)

/-- An extended real whose absolute value is below +∞ is a real number. -/
theorem real_of_abs_lt_top (e : EReal) (h : max e (-e) < ⊤) : ∃ r : ℝ, e = (r : EReal) := by
  induction e using EReal.rec with
  | bot => simp at h
  | coe r => exact ⟨r, rfl⟩
  | top => simp at h

/-- One entry: if the printed comparison |e| < +∞ gives the bit one, e is a real number. -/
theorem real_of_finite_bit (e : EReal)
    (h : FloatOps.cmpf (F := Ideal) (φ := .f32) .olt (FloatOps.hostAbsf e) (FloatOps.ofBits .f32 0x7F800000#32) = 1#1) :
    ∃ r : ℝ, e = (r : EReal) := by
  have hb : BitVec.ofBool (decide (max e (-e) < Ideal.ofBits .f32 0x7F800000#32)) = 1#1 := h
  have hlt : max e (-e) < Ideal.ofBits .f32 0x7F800000#32 := of_bit_eq_one hb
  rw [inf_word] at hlt
  exact real_of_abs_lt_top e hlt

/-- One array, of any shape: if the "and" over all its entries of the bit |e| < +∞ is one, every
    entry is a real number. Read at an index, the array of comparison bits is the comparison of the
    entry with the constant, the constant being the same at every index. -/
theorem entries_real {s : Shape} {dims : Fin 0 → Fin s.rank} {axes : List (Fin s.rank)} (x : FVec Ideal s .f32)
    (hb : (⟨0, ![]⟩ : Shape).BroadcastsInDim s dims) (hr : s.ReducesTo axes ⟨0, ![]⟩)
    (hu : 0 < (⟨0, ![]⟩ : Shape).numel)
    (h : Host.reduce IntOp.andi
          (cmpf .olt (Host.absf x) (broadcastInDim s dims hb (constant (F := Ideal) ⟨0, ![]⟩ .f32 0x7F800000#32)))
          (constantI ⟨0, ![]⟩ 1 1#1) hr hu ix0 = 1#1)
    (i : s.Idx) : ∃ r : ℝ, x i = (r : EReal) :=
  real_of_finite_bit (x i) (Host.reduce_andi_all _ _ hr hu ix0 h i)

/-- The whole precondition, over any five arrays of the arguments' shapes: if it is one, the
    entries of the first, fourth and fifth array are real numbers. -/
theorem args_real [Cert.Pre_finite_inputs.Facts]
    (x0 : FVec Ideal Cert.Pre_finite_inputs.S8192x4096 .f32) (x1 : FVec Ideal Cert.Pre_finite_inputs.S11008x4096 .f32)
    (x2 : FVec Ideal Cert.Pre_finite_inputs.S11008 .f32) (x3 : FVec Ideal Cert.Pre_finite_inputs.S11008x16 .f32)
    (x4 : FVec Ideal Cert.Pre_finite_inputs.S16x4096 .f32)
    (h : Cert.Pre_finite_inputs.fn (F := Ideal) x0 x1 x2 x3 x4 = fun _ => 1#1) :
    (∀ i, ∃ r : ℝ, x0 i = (r : EReal)) ∧ (∀ i, ∃ r : ℝ, x3 i = (r : EReal)) ∧ (∀ i, ∃ r : ℝ, x4 i = (r : EReal)) := by
  have h0 := congrFun h ix0
  dsimp only [Cert.Pre_finite_inputs.fn, Cert.Pre_finite_inputs.fn_part1] at h0
  have a4 := IntOp.andi_eq_one.1 h0
  have a3 := IntOp.andi_eq_one.1 a4.1
  have a2 := IntOp.andi_eq_one.1 a3.1
  have a1 := IntOp.andi_eq_one.1 a2.1
  exact ⟨entries_real x0 _ _ _ a1.1, entries_real x3 _ _ _ a3.2, entries_real x4 _ _ _ a4.2⟩

/-- Under the precondition every entry of x is a real number. -/
theorem x_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S8192x4096.Idx) :
    ∃ r : ℝ, m ((c.tc : Thread Cert.KernelIdeal.nD Cert.KernelIdeal.τ).loc Cert.KernelIdeal.main_arg0) i = (r : EReal) :=
  (args_real _ _ _ _ _ (hpre c)).1 i

/-- Under the precondition every entry of B is a real number. -/
theorem B_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S11008x16.Idx) :
    ∃ r : ℝ, m ((c.tc : Thread Cert.KernelIdeal.nD Cert.KernelIdeal.τ).loc Cert.KernelIdeal.main_arg3) i = (r : EReal) :=
  (args_real _ _ _ _ _ (hpre c)).2.1 i

/-- Under the precondition every entry of A is a real number. -/
theorem A_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S16x4096.Idx) :
    ∃ r : ℝ, m ((c.tc : Thread Cert.KernelIdeal.nD Cert.KernelIdeal.τ).loc Cert.KernelIdeal.main_arg4) i = (r : EReal) :=
  (args_real _ _ _ _ _ (hpre c)).2.2 i

end Cert.KernelIdeal.Finite

end
-- ==== Proof.Pieces.lean ====
/-
  What the body leaves in the output block, case by case, as the body's own arithmetic terms.

  The body has three control cases over the last grid axis k (eight steps per output block):
    first step  (k = 0): the block is zeroed, read back, and the step's partial product added;
    middle steps (0 < k < 7): the block left by the step before is read and the partial product added;
    last step   (k = 7): the same accumulation, then the bias row and the scaled low-rank product are added.
  Each case ends in one store that covers the whole block, so the block holds that store's value, and the
  values read on the way are whole staging buffers, or the value an earlier covering store left.
-/
import proofs.«135984_j44006234915015_2_alg».proof.Proof.Gen.KernelIdeal.Frame
import Idealize.ShloMosaic.Lib.Pipeline.Value
import Idealize.ShloMosaic.Lib.Tactic

set_option maxRecDepth 16384

noncomputable section

namespace Cert.KernelIdeal.CaseValue

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- Middle steps: the block `acc` left by the step before, plus this step's partial product. -/
theorem middle (c : Dev nD) (i : grid0.Coords) (a3 : Memref sig .tc .vmem S2048x512 .bf16) (h3 : a3.IsWhole)
    (a4 : Memref sig .tc .vmem S512x512 .bf16) (h4 : a4.IsWhole) (a5 : Memref sig .tc .vmem S1x512 .f32) (h5 : a5.IsWhole)
    (a6 : Memref sig .tc .vmem S512x16 .f32) (h6 : a6.IsWhole) (a7 : Memref sig .tc .vmem S2048x16 .f32) (h7 : a7.IsWhole)
    (a8 : Memref sig .tc .vmem S2048x512 .f32) (h8 : a8.IsWhole) (hc0 : ¬cond0_0 i) (hc1 : ¬cond0_1 i)
    (x0 : Vec F S2048x512 .bf16) (x1 : Vec F S512x512 .bf16) (x2 : Vec F S1x512 .f32) (x3 : Vec F S512x16 .f32)
    (x4 : Vec F S2048x16 .f32) (acc : Vec F S2048x512 .f32) :
    out0_B_5 c i a3 h3 a4 h4 a5 h5 a6 h6 a7 h7 a8 h8 hc0 hc1 x0 x1 x2 x3 x4 acc = k0_pay2 acc x0 x1 := by
  unfold out0_B_5
  rw [View.read_writes_eq_canon _ _ _ (cover0_B_5 c i a3 h3 a4 h4 a5 h5 a6 h6 a7 h7 a8 h8 hc0 hc1 x0 x1 x2 x3 x4 acc)]
  unfold kernelRun0_B
  dsimp only
  rw [View.canon_unit_zero hz]
  simp only [View.readAt_eq_ld, h8.read_unread, h3.read_unread, h4.read_unread, View.ld_unit_zero (S := S2048x512) hz,
    View.ld_unit_zero (S := S512x512) hz]

/-- First step: the zero block is stored and read back, and the step's partial product is added to it. -/
theorem first (c : Dev nD) (i : grid0.Coords) (a3 : Memref sig .tc .vmem S2048x512 .bf16) (h3 : a3.IsWhole)
    (a4 : Memref sig .tc .vmem S512x512 .bf16) (h4 : a4.IsWhole) (a5 : Memref sig .tc .vmem S1x512 .f32) (h5 : a5.IsWhole)
    (a6 : Memref sig .tc .vmem S512x16 .f32) (h6 : a6.IsWhole) (a7 : Memref sig .tc .vmem S2048x16 .f32) (h7 : a7.IsWhole)
    (a8 : Memref sig .tc .vmem S2048x512 .f32) (h8 : a8.IsWhole) (hc0 : cond0_0 i) (hc1 : ¬cond0_1 i)
    (x0 : Vec F S2048x512 .bf16) (x1 : Vec F S512x512 .bf16) (x2 : Vec F S1x512 .f32) (x3 : Vec F S512x16 .f32)
    (x4 : Vec F S2048x16 .f32) :
    out0_A_5 c i a3 h3 a4 h4 a5 h5 a6 h6 a7 h7 a8 h8 hc0 hc1 x0 x1 x2 x3 x4 = k0_pay2 (k0_pay1 (F := F)) x0 x1 := by
  unfold out0_A_5
  rw [View.read_writes_eq_canon _ _ _ (cover0_A_5 c i a3 h3 a4 h4 a5 h5 a6 h6 a7 h7 a8 h8 hc0 hc1 x0 x1 x2 x3 x4)]
  unfold kernelRun0_A
  dsimp only
  sl_unfold_words
  rw [View.canon_cons_unit_zero (S := S2048x512) hz, View.readCov_unit_zero (S := S2048x512) _ hz]
  simp only [View.readAt_eq_ld, h3.read_unread, h4.read_unread, View.ld_unit_zero (S := S2048x512) hz,
    View.ld_unit_zero (S := S512x512) hz]

/-- Last step: the accumulated block (the step before's, plus this step's partial product) is stored and read
    back; the bias row and the scaled low-rank product are added to it. -/
theorem last (c : Dev nD) (i : grid0.Coords) (a3 : Memref sig .tc .vmem S2048x512 .bf16) (h3 : a3.IsWhole)
    (a4 : Memref sig .tc .vmem S512x512 .bf16) (h4 : a4.IsWhole) (a5 : Memref sig .tc .vmem S1x512 .f32) (h5 : a5.IsWhole)
    (a6 : Memref sig .tc .vmem S512x16 .f32) (h6 : a6.IsWhole) (a7 : Memref sig .tc .vmem S2048x16 .f32) (h7 : a7.IsWhole)
    (a8 : Memref sig .tc .vmem S2048x512 .f32) (h8 : a8.IsWhole) (hc0 : ¬cond0_0 i) (hc1 : cond0_1 i)
    (x0 : Vec F S2048x512 .bf16) (x1 : Vec F S512x512 .bf16) (x2 : Vec F S1x512 .f32) (x3 : Vec F S512x16 .f32)
    (x4 : Vec F S2048x16 .f32) (acc : Vec F S2048x512 .f32) :
    out0_C_5 c i a3 h3 a4 h4 a5 h5 a6 h6 a7 h7 a8 h8 hc0 hc1 x0 x1 x2 x3 x4 acc
      = k0_pay3 x3 x4 (k0_pay2 acc x0 x1) x2 := by
  unfold out0_C_5
  rw [View.read_writes_eq_canon _ _ _ (cover0_C_5 c i a3 h3 a4 h4 a5 h5 a6 h6 a7 h7 a8 h8 hc0 hc1 x0 x1 x2 x3 x4 acc)]
  unfold kernelRun0_C
  dsimp only
  sl_unfold_words
  rw [View.canon_cons_unit_zero (S := S2048x512) hz, View.readCov_unit_zero (S := S2048x512) _ hz]
  simp only [View.readAt_eq_ld, h3.read_unread, h4.read_unread, h5.read_unread, h6.read_unread, h7.read_unread,
    h8.read_unread, View.ld_unit_zero (S := S2048x512) hz, View.ld_unit_zero (S := S512x512) hz,
    View.ld_unit_zero (S := S512x16) hz, View.ld_unit_zero (S := S2048x16) hz, View.ld_unit_zero (S := S1x512) hz]

end Cert.KernelIdeal.CaseValue

end
-- ==== Proof.Payload.lean ====
/-
  The body's three stored values read at one entry (p, q) of the [2048, 512] output block, over the
  extended reals, where every format change is the identity and a matrix product into a zero accumulator is
  the plain sum over the contracted axis:

    the reset value            is 0;
    an accumulation step       is acc (p, q) + Σ_kk xblk (p, kk) · wblk (q, kk)   (512 terms; the W block enters transposed);
    the closing step           is (acc (p, q) + bias (0, q)) + (Σ_r xa (p, r) · bblk (q, r)) · scale   (16 terms).
-/
import proofs.«135984_j44006234915015_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx
open Cert.KernelIdeal Cert.KernelIdeal.Gen

/-- The scale of the low-rank term, as the kernel's literal (never evaluated: the reference holds the same word). -/
abbrev scale : EReal := Ideal.ofBits .f32 0x40000000#32

theorem step_product_lhs0 (j : S2048x512.Idx) (k : dot_S2048x512_S512x512_S2048x512_1_0_0_1_n_n.contr.Idx) : (dot_S2048x512_S512x512_S2048x512_1_0_0_1_n_n.lhsIdx j k 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem step_product_lhs1 (j : S2048x512.Idx) (k : dot_S2048x512_S512x512_S2048x512_1_0_0_1_n_n.contr.Idx) : (dot_S2048x512_S512x512_S2048x512_1_0_0_1_n_n.lhsIdx j k 1).val = (k ⟨0, by decide⟩).val :=
  dot_S2048x512_S512x512_S2048x512_1_0_0_1_n_n.lhsIdx_val_of_single rfl j k
theorem step_product_rhs0 (j : S2048x512.Idx) (k : dot_S2048x512_S512x512_S2048x512_1_0_0_1_n_n.contr.Idx) : (dot_S2048x512_S512x512_S2048x512_1_0_0_1_n_n.rhsIdx j k 0).val = (k ⟨0, by decide⟩).val :=
  dot_S2048x512_S512x512_S2048x512_1_0_0_1_n_n.rhsIdx_val_of_single rfl j k
theorem step_product_rhs1 (j : S2048x512.Idx) (k : dot_S2048x512_S512x512_S2048x512_1_0_0_1_n_n.contr.Idx) : (dot_S2048x512_S512x512_S2048x512_1_0_0_1_n_n.rhsIdx j k 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- A [2048, 512] by [512, 512] product into a zero accumulator, at an entry: the sum over the 512 contracted columns. -/
theorem step_product (lhs : FVec Ideal S2048x512 .bf16) (rhs : FVec Ideal S512x512 .bf16) (p : Fin 2048) (q : Fin 512) :
    matmul dot_S2048x512_S512x512_S2048x512_1_0_0_1_n_n none lhs rhs (constant (F := Ideal) S2048x512 .f32 0x00000000#32) (ix2 p q)
      = ∑ kk : Fin 512, lhs (ix2 p kk) * rhs (ix2 kk q) := by
  refine (Ideal.matmul_constant_zero_apply dot_S2048x512_S512x512_S2048x512_1_0_0_1_n_n none lhs rhs (ix2 p q)).trans ?_
  rw [← Equiv.sum_comp (contrEquiv1 dot_S2048x512_S512x512_S2048x512_1_0_0_1_n_n 512 rfl rfl).symm]
  refine Finset.sum_congr rfl fun kk _ => ?_
  have hk := contrEquiv1_symm_val dot_S2048x512_S512x512_S2048x512_1_0_0_1_n_n 512 rfl rfl kk
  have el : dot_S2048x512_S512x512_S2048x512_1_0_0_1_n_n.lhsIdx (ix2 p q) ((contrEquiv1 dot_S2048x512_S512x512_S2048x512_1_0_0_1_n_n 512 rfl rfl).symm kk) = ix2 p kk :=
    funext fun a => Fin.ext (by
      match a with
      | ⟨0, _⟩ => exact step_product_lhs0 _ _
      | ⟨1, _⟩ => exact (step_product_lhs1 _ _).trans hk)
  have er : dot_S2048x512_S512x512_S2048x512_1_0_0_1_n_n.rhsIdx (ix2 p q) ((contrEquiv1 dot_S2048x512_S512x512_S2048x512_1_0_0_1_n_n 512 rfl rfl).symm kk) = ix2 kk q :=
    funext fun a => Fin.ext (by
      match a with
      | ⟨0, _⟩ => exact (step_product_rhs0 _ _).trans hk
      | ⟨1, _⟩ => exact step_product_rhs1 _ _)
  rw [el, er]

theorem rank_product_lhs0 (j : S2048x512.Idx) (k : dot_S2048x16_S16x512_S2048x512_1_0_0_1_n_n.contr.Idx) : (dot_S2048x16_S16x512_S2048x512_1_0_0_1_n_n.lhsIdx j k 0).val = (j 0).val := by
  unfold DotDims.lhsIdx
  rw [dif_neg (show ¬(0 : Fin S2048x16.rank) ∈ dot_S2048x16_S16x512_S2048x512_1_0_0_1_n_n.lhsBatch by decide),
    dif_pos (show (0 : Fin S2048x16.rank) ∈ dot_S2048x16_S16x512_S2048x512_1_0_0_1_n_n.lhsNonContracting by decide)]
  rfl
theorem rank_product_lhs1 (j : S2048x512.Idx) (k : dot_S2048x16_S16x512_S2048x512_1_0_0_1_n_n.contr.Idx) : (dot_S2048x16_S16x512_S2048x512_1_0_0_1_n_n.lhsIdx j k 1).val = (k ⟨0, by decide⟩).val :=
  dot_S2048x16_S16x512_S2048x512_1_0_0_1_n_n.lhsIdx_val_of_single rfl j k
theorem rank_product_rhs0 (j : S2048x512.Idx) (k : dot_S2048x16_S16x512_S2048x512_1_0_0_1_n_n.contr.Idx) : (dot_S2048x16_S16x512_S2048x512_1_0_0_1_n_n.rhsIdx j k 0).val = (k ⟨0, by decide⟩).val :=
  dot_S2048x16_S16x512_S2048x512_1_0_0_1_n_n.rhsIdx_val_of_single rfl j k
theorem rank_product_rhs1 (j : S2048x512.Idx) (k : dot_S2048x16_S16x512_S2048x512_1_0_0_1_n_n.contr.Idx) : (dot_S2048x16_S16x512_S2048x512_1_0_0_1_n_n.rhsIdx j k 1).val = (j 1).val := by
  unfold DotDims.rhsIdx
  rw [dif_neg (show ¬(1 : Fin S16x512.rank) ∈ dot_S2048x16_S16x512_S2048x512_1_0_0_1_n_n.rhsBatch by decide),
    dif_pos (show (1 : Fin S16x512.rank) ∈ dot_S2048x16_S16x512_S2048x512_1_0_0_1_n_n.rhsNonContracting by decide)]
  rfl

/-- A [2048, 16] by [16, 512] product into a zero accumulator, at an entry: the sum over the 16 rank directions. -/
theorem rank_product (lhs : FVec Ideal S2048x16 .bf16) (rhs : FVec Ideal S16x512 .bf16) (p : Fin 2048) (q : Fin 512) :
    matmul dot_S2048x16_S16x512_S2048x512_1_0_0_1_n_n none lhs rhs (constant (F := Ideal) S2048x512 .f32 0x00000000#32) (ix2 p q)
      = ∑ kk : Fin 16, lhs (ix2 p kk) * rhs (ix2 kk q) := by
  refine (Ideal.matmul_constant_zero_apply dot_S2048x16_S16x512_S2048x512_1_0_0_1_n_n none lhs rhs (ix2 p q)).trans ?_
  rw [← Equiv.sum_comp (contrEquiv1 dot_S2048x16_S16x512_S2048x512_1_0_0_1_n_n 16 rfl rfl).symm]
  refine Finset.sum_congr rfl fun kk _ => ?_
  have hk := contrEquiv1_symm_val dot_S2048x16_S16x512_S2048x512_1_0_0_1_n_n 16 rfl rfl kk
  have el : dot_S2048x16_S16x512_S2048x512_1_0_0_1_n_n.lhsIdx (ix2 p q) ((contrEquiv1 dot_S2048x16_S16x512_S2048x512_1_0_0_1_n_n 16 rfl rfl).symm kk) = ix2 p kk :=
    funext fun a => Fin.ext (by
      match a with
      | ⟨0, _⟩ => exact rank_product_lhs0 _ _
      | ⟨1, _⟩ => exact (rank_product_lhs1 _ _).trans hk)
  have er : dot_S2048x16_S16x512_S2048x512_1_0_0_1_n_n.rhsIdx (ix2 p q) ((contrEquiv1 dot_S2048x16_S16x512_S2048x512_1_0_0_1_n_n 16 rfl rfl).symm kk) = ix2 kk q :=
    funext fun a => Fin.ext (by
      match a with
      | ⟨0, _⟩ => exact (rank_product_rhs0 _ _).trans hk
      | ⟨1, _⟩ => exact rank_product_rhs1 _ _)
  rw [el, er]

/-- The reset value is zero everywhere. -/
theorem reset_apply (y : S2048x512.Idx) : k0_pay1 (F := Ideal) y = 0 := by
  show Ideal.ofBits .f32 0x00000000#32 = 0
  exact Ideal.ofBits_zero_f32

/-- An accumulation step at an entry: what the block held, plus row p of the x block against row q of the W block. -/
theorem accumulate_apply (acc : FVec Ideal S2048x512 .f32) (xblk : FVec Ideal S2048x512 .bf16)
    (wblk : FVec Ideal S512x512 .bf16) (p : Fin 2048) (q : Fin 512) :
    k0_pay2 (F := Ideal) acc xblk wblk (ix2 p q) = acc (ix2 p q) + ∑ kk : Fin 512, xblk (ix2 p kk) * wblk (ix2 q kk) := by
  unfold k0_pay2
  simp only [shapeCast_self]
  refine (addf_apply _ _ (ix2 p q)).trans ?_
  refine congrArg (acc (ix2 p q) + ·) ?_
  refine (step_product xblk _ p q).trans ?_
  refine Finset.sum_congr rfl fun kk _ => ?_
  rw [transpose_ix2_apply]

/-- The closing step at an entry: the accumulated value plus the bias of column q, plus the scaled product of
    row p of the projected block with row q of the B block (the B block enters transposed). -/
theorem finish_apply (bblk : FVec Ideal S512x16 .f32) (xa : FVec Ideal S2048x16 .f32) (acc : FVec Ideal S2048x512 .f32)
    (bias : FVec Ideal S1x512 .f32) (p : Fin 2048) (q : Fin 512) :
    k0_pay3 (F := Ideal) bblk xa acc bias (ix2 p q)
      = (acc (ix2 p q) + bias (ix2 (0 : Fin 1) q)) + (∑ r : Fin 16, xa (ix2 p r) * bblk (ix2 q r)) * scale := by
  unfold k0_pay3
  simp only [shapeCast_self]
  refine (addf_apply _ _ (ix2 p q)).trans ?_
  refine congrArg₂ (· + ·) ?_ ?_
  · refine (addf_apply _ _ (ix2 p q)).trans ?_
    refine congrArg (acc (ix2 p q) + ·) ?_
    exact broadcastTo_1b_ab_apply _ _ p q
  · refine (mulf_apply _ _ (ix2 p q)).trans ?_
    refine congrArg₂ (· * ·) ?_ rfl
    refine (rank_product _ _ p q).trans ?_
    refine Finset.sum_congr rfl fun r _ => ?_
    rw [transpose_ix2_apply]
    rfl

end Cert.KernelIdeal.PayloadValue

end
-- ==== Proof.Steps.lean ====
/-
  The arithmetic of the accumulation, with no program in sight.

  One output block is visited at eight consecutive grid points (the last grid axis, k = 0 … 7). The point
  numbered t (row-major over the [4, 22, 8] grid) works on block row t / 176 and block column (t / 8) % 22, so
  entry (p, q) of its block is entry (2048 · (t / 176) + p, 512 · ((t / 8) % 22) + q) of the padded
  [8192, 11264] result. Step k adds the k-th run of 512 columns of the row product
  Σ_j X (row, j) · W (col, j); after step k the block holds the product over the first 512 · (k + 1) columns,
  and the eighth step also adds the bias and the scaled rank-16 term. Sums over the extended reals may be
  regrouped freely (addition there is associative and commutative), so nothing here needs finiteness.

  Arrays are read through total functions of natural-number coordinates (`nat2`, zero outside the extents), so
  that block offsets are plain arithmetic.
-/
import Idealize.ShloMosaic.PureOps.Ideal
import Idealize.ShloMosaic.Lib.ValueIdx

noncomputable section

namespace Cert.LoraSteps

open Idealize.ShloMosaic Idealize.ShloMosaic.ValueIdx Finset

/-- A matrix read at natural-number coordinates, zero outside its extents. -/
def nat2 {a b : ℕ} (A : (⟨2, ![a, b]⟩ : Shape).Idx → EReal) (r k : ℕ) : EReal :=
  if h : r < a ∧ k < b then A (ix2 ⟨r, h.1⟩ ⟨k, h.2⟩) else 0

theorem nat2_val {a b : ℕ} (A : (⟨2, ![a, b]⟩ : Shape).Idx → EReal) (r : Fin a) (k : Fin b) :
    nat2 A r.val k.val = A (ix2 r k) := by
  unfold nat2
  rw [dif_pos ⟨r.isLt, k.isLt⟩]

theorem nat2_of_lt {a b : ℕ} (A : (⟨2, ![a, b]⟩ : Shape).Idx → EReal) (r k : ℕ) (hr : r < a) (hk : k < b) :
    nat2 A r k = A (ix2 ⟨r, hr⟩ ⟨k, hk⟩) := by
  unfold nat2
  rw [dif_pos ⟨hr, hk⟩]

/-- The product of two rows over their first n columns. -/
def rowDot (u v : ℕ → EReal) (n : ℕ) : EReal := ∑ j ∈ range n, u j * v j

theorem rowDot_zero (u v : ℕ → EReal) : rowDot u v 0 = 0 := Finset.sum_range_zero _

/-- One more run of 512 columns. -/
theorem rowDot_step (u v : ℕ → EReal) (k : ℕ) :
    rowDot u v (512 * (k + 1)) = rowDot u v (512 * k) + ∑ kk : Fin 512, u (512 * k + kk.val) * v (512 * k + kk.val) := by
  unfold rowDot
  rw [show 512 * (k + 1) = 512 * k + 512 from by ring, Finset.sum_range_add]
  exact congrArg (_ + ·) (Finset.sum_range fun x => u (512 * k + x) * v (512 * k + x))

/-- Over all n columns it is the sum over `Fin n`. -/
theorem rowDot_eq_sum (u v : ℕ → EReal) (n : ℕ) : rowDot u v n = ∑ k : Fin n, u k.val * v k.val := by
  unfold rowDot
  rw [Finset.sum_range]

/-- The row of the padded result that entry row p of point t's block is. -/
def rowOf (t p : ℕ) : ℕ := 2048 * (t / 176) + p
/-- The column of the padded result that entry column q of point t's block is. -/
def colOf (t q : ℕ) : ℕ := 512 * ((t / 8) % 22) + q

section
variable (X W : ℕ → ℕ → EReal) (bias : ℕ → EReal) (B xA : ℕ → ℕ → EReal) (scale : EReal)

/-- An entry of the padded result: the full row product plus the bias, plus the scaled rank-16 term. -/
def entry (R N : ℕ) : EReal :=
  (rowDot (X R) (W N) 4096 + bias N) + (∑ r : Fin 16, xA R r.val * B N r.val) * scale

/-- What point t adds to entry (p, q) of its block: its run of 512 columns of the row product. -/
def stepTerm (t p q : ℕ) : EReal :=
  ∑ kk : Fin 512, X (rowOf t p) (512 * (t % 8) + kk.val) * W (colOf t q) (512 * (t % 8) + kk.val)

/-- What entry (p, q) of the block holds after point t: the row product over the columns done so far, and after
    the eighth step the finished entry. -/
def afterStep (t p q : ℕ) : EReal :=
  if t % 8 = 7 then entry X W bias B xA scale (rowOf t p) (colOf t q)
  else rowDot (X (rowOf t p)) (W (colOf t q)) (512 * (t % 8 + 1))

theorem afterStep_first (t p q : ℕ) (h : t % 8 = 0) :
    afterStep X W bias B xA scale t p q = 0 + stepTerm X W t p q := by
  unfold afterStep stepTerm
  rw [if_neg (by omega), h, rowDot_step, Nat.mul_zero, rowDot_zero]

theorem afterStep_middle (t p q : ℕ) (h0 : ¬t % 8 = 0) (h7 : ¬t % 8 = 7) :
    afterStep X W bias B xA scale t p q = afterStep X W bias B xA scale (t - 1) p q + stepTerm X W t p q := by
  have hk : (t - 1) % 8 + 1 = t % 8 := by omega
  have hr : rowOf (t - 1) p = rowOf t p := by unfold rowOf; omega
  have hc : colOf (t - 1) q = colOf t q := by unfold colOf; omega
  unfold afterStep stepTerm
  rw [if_neg h7, if_neg (by omega : ¬(t - 1) % 8 = 7), hr, hc, hk, rowDot_step]

theorem afterStep_last (t p q : ℕ) (h7 : t % 8 = 7) :
    afterStep X W bias B xA scale t p q
      = ((afterStep X W bias B xA scale (t - 1) p q + stepTerm X W t p q) + bias (colOf t q))
        + (∑ r : Fin 16, xA (rowOf t p) r.val * B (colOf t q) r.val) * scale := by
  have hk : (t - 1) % 8 + 1 = t % 8 := by omega
  have hr : rowOf (t - 1) p = rowOf t p := by unfold rowOf; omega
  have hc : colOf (t - 1) q = colOf t q := by unfold colOf; omega
  unfold afterStep stepTerm entry
  rw [if_pos h7, if_neg (by omega : ¬(t - 1) % 8 = 7), hr, hc, hk, ← rowDot_step, h7]

end

end Cert.LoraSteps

end
-- ==== Proof.Blocks.lean ====
/-
  Each window's block at a grid point, read at an entry, as an entry of the array the window stages.

  Point t of the row-major [4, 22, 8] grid has coordinates (t / 176, (t / 8) % 22, t % 8). The x window takes block
  (i, k) of [2048, 512] blocks, the W window block (j, k) of [512, 512], the bias window block (0, j) of [1, 512],
  the B window block (j, 0) of [512, 16], the projected-x window block (i, 0) of [2048, 16], the output window
  block (i, j) of [2048, 512]: an entry of a block sits at block index × block extent + its coordinate.
-/
import proofs.«135984_j44006234915015_2_alg».proof.Proof.Gen.KernelIdeal.Frame
import proofs.«135984_j44006234915015_2_alg».proof.Proof.Steps
import Idealize.ShloMosaic.Lib.Pipeline.Value
import Idealize.ShloMosaic.Lib.ValueIdx

set_option maxRecDepth 16384

noncomputable section

namespace Cert.KernelIdeal.BlockValue

open Idealize.ShloMosaic Idealize.ShloMosaic.TcCoe Idealize.SL.Sem Idealize.ShloMosaic.ValueIdx
open Cert.KernelIdeal Cert.KernelIdeal.Gen Cert.LoraSteps

/-- The block index of every window at every point, from the point's number: decided over the 704 points. -/
theorem index_facts : ∀ t : Fin cfg0.N,
    win0_0.index t 0 = t.val / 176 ∧ win0_0.index t 1 = t.val % 8 ∧
    win0_1.index t 0 = (t.val / 8) % 22 ∧ win0_1.index t 1 = t.val % 8 ∧
    win0_2.index t 0 = 0 ∧ win0_2.index t 1 = (t.val / 8) % 22 ∧
    win0_3.index t 0 = (t.val / 8) % 22 ∧ win0_3.index t 1 = 0 ∧
    win0_4.index t 0 = t.val / 176 ∧ win0_4.index t 1 = 0 ∧
    win0_5.index t 0 = t.val / 176 ∧ win0_5.index t 1 = (t.val / 8) % 22 :=
  (by decide +kernel : ∀ t : Fin grid0.N,
    win0_0.index t 0 = t.val / 176 ∧ win0_0.index t 1 = t.val % 8 ∧
    win0_1.index t 0 = (t.val / 8) % 22 ∧ win0_1.index t 1 = t.val % 8 ∧
    win0_2.index t 0 = 0 ∧ win0_2.index t 1 = (t.val / 8) % 22 ∧
    win0_3.index t 0 = (t.val / 8) % 22 ∧ win0_3.index t 1 = 0 ∧
    win0_4.index t 0 = t.val / 176 ∧ win0_4.index t 1 = 0 ∧
    win0_5.index t 0 = t.val / 176 ∧ win0_5.index t 1 = (t.val / 8) % 22)

variable (m : (ℓ : Loc nD τ sig) → Buf (Elt Ideal) ℓ) (c : Dev nD)

/-- The x block: rows of block row t / 176, columns of the k-th run of 512. -/
theorem x_block (t : Fin cfg0.N) (p : Fin 2048) (kk : Fin 512) :
    (iblk (F := Ideal) m c 0 t : FVec Ideal S2048x512 .bf16) (ix2 p kk)
      = nat2 (V (F := Ideal) m c main_v3 : S8192x4096.Idx → EReal) (rowOf t.val p.val) (512 * (t.val % 8) + kk.val) := by
  have hN : t.val < 704 := lt_of_lt_of_eq t.isLt (show cfg0.N = 704 from N_0)
  have hf := index_facts t
  rw [nat2_of_lt _ _ _ (by (try unfold rowOf); (try unfold colOf); omega) (by (try unfold rowOf); (try unfold colOf); omega)]
  unfold iblk
  rw [View.read_apply]
  show V m c main_v3 _ = V m c main_v3 _
  refine congrArg (V m c main_v3) (funext fun a => Fin.ext ?_)
  match a with
  | ⟨0, _⟩ =>
    show win0_0.index t 0 * 2048 + 1 * p.val = rowOf t.val p.val
    rw [hf.1]; (try unfold rowOf); (try unfold colOf); omega
  | ⟨1, _⟩ =>
    show win0_0.index t 1 * 512 + 1 * kk.val = 512 * (t.val % 8) + kk.val
    rw [hf.2.1]; (try unfold rowOf); (try unfold colOf); omega

/-- The W block: rows of block column (t / 8) % 22 (a row of W is an output column), columns of the k-th run of 512. -/
theorem w_block (t : Fin cfg0.N) (q : Fin 512) (kk : Fin 512) :
    (iblk (F := Ideal) m c 1 t : FVec Ideal S512x512 .bf16) (ix2 q kk)
      = nat2 (V (F := Ideal) m c main_v4 : S11264x4096.Idx → EReal) (colOf t.val q.val) (512 * (t.val % 8) + kk.val) := by
  have hN : t.val < 704 := lt_of_lt_of_eq t.isLt (show cfg0.N = 704 from N_0)
  have hf := index_facts t
  rw [nat2_of_lt _ _ _ (by (try unfold rowOf); (try unfold colOf); omega) (by (try unfold rowOf); (try unfold colOf); omega)]
  unfold iblk
  rw [View.read_apply]
  show V m c main_v4 _ = V m c main_v4 _
  refine congrArg (V m c main_v4) (funext fun a => Fin.ext ?_)
  match a with
  | ⟨0, _⟩ =>
    show win0_1.index t 0 * 512 + 1 * q.val = colOf t.val q.val
    rw [hf.2.2.1]; (try unfold rowOf); (try unfold colOf); omega
  | ⟨1, _⟩ =>
    show win0_1.index t 1 * 512 + 1 * kk.val = 512 * (t.val % 8) + kk.val
    rw [hf.2.2.2.1]; (try unfold rowOf); (try unfold colOf); omega

/-- The bias block: the one row, columns of block column (t / 8) % 22. -/
theorem bias_block (t : Fin cfg0.N) (z : Fin 1) (q : Fin 512) :
    (iblk (F := Ideal) m c 2 t : FVec Ideal S1x512 .f32) (ix2 z q)
      = nat2 (V (F := Ideal) m c main_v5 : S1x11264.Idx → EReal) (0) (colOf t.val q.val) := by
  have hN : t.val < 704 := lt_of_lt_of_eq t.isLt (show cfg0.N = 704 from N_0)
  have hf := index_facts t
  rw [nat2_of_lt _ _ _ (by (try unfold rowOf); (try unfold colOf); omega) (by (try unfold rowOf); (try unfold colOf); omega)]
  unfold iblk
  rw [View.read_apply]
  show V m c main_v5 _ = V m c main_v5 _
  refine congrArg (V m c main_v5) (funext fun a => Fin.ext ?_)
  match a with
  | ⟨0, _⟩ =>
    show win0_2.index t 0 * 1 + 1 * z.val = 0
    rw [hf.2.2.2.2.1]; (try unfold rowOf); (try unfold colOf); omega
  | ⟨1, _⟩ =>
    show win0_2.index t 1 * 512 + 1 * q.val = colOf t.val q.val
    rw [hf.2.2.2.2.2.1]; (try unfold rowOf); (try unfold colOf); omega

/-- The B block: rows of block column (t / 8) % 22, all 16 rank directions. -/
theorem b_block (t : Fin cfg0.N) (q : Fin 512) (r : Fin 16) :
    (iblk (F := Ideal) m c 3 t : FVec Ideal S512x16 .f32) (ix2 q r)
      = nat2 (V (F := Ideal) m c main_v2 : S11264x16.Idx → EReal) (colOf t.val q.val) (r.val) := by
  have hN : t.val < 704 := lt_of_lt_of_eq t.isLt (show cfg0.N = 704 from N_0)
  have hf := index_facts t
  rw [nat2_of_lt _ _ _ (by (try unfold rowOf); (try unfold colOf); omega) (by (try unfold rowOf); (try unfold colOf); omega)]
  unfold iblk
  rw [View.read_apply]
  show V m c main_v2 _ = V m c main_v2 _
  refine congrArg (V m c main_v2) (funext fun a => Fin.ext ?_)
  match a with
  | ⟨0, _⟩ =>
    show win0_3.index t 0 * 512 + 1 * q.val = colOf t.val q.val
    rw [hf.2.2.2.2.2.2.1]; (try unfold rowOf); (try unfold colOf); omega
  | ⟨1, _⟩ =>
    show win0_3.index t 1 * 16 + 1 * r.val = r.val
    rw [hf.2.2.2.2.2.2.2.1]; (try unfold rowOf); (try unfold colOf); omega

/-- The projected-x block: rows of block row t / 176, all 16 rank directions. -/
theorem xa_block (t : Fin cfg0.N) (p : Fin 2048) (r : Fin 16) :
    (iblk (F := Ideal) m c 4 t : FVec Ideal S2048x16 .f32) (ix2 p r)
      = nat2 (V (F := Ideal) m c main_v7 : S8192x16.Idx → EReal) (rowOf t.val p.val) (r.val) := by
  have hN : t.val < 704 := lt_of_lt_of_eq t.isLt (show cfg0.N = 704 from N_0)
  have hf := index_facts t
  rw [nat2_of_lt _ _ _ (by (try unfold rowOf); (try unfold colOf); omega) (by (try unfold rowOf); (try unfold colOf); omega)]
  unfold iblk
  rw [View.read_apply]
  show V m c main_v7 _ = V m c main_v7 _
  refine congrArg (V m c main_v7) (funext fun a => Fin.ext ?_)
  match a with
  | ⟨0, _⟩ =>
    show win0_4.index t 0 * 2048 + 1 * p.val = rowOf t.val p.val
    rw [hf.2.2.2.2.2.2.2.2.1]; (try unfold rowOf); (try unfold colOf); omega
  | ⟨1, _⟩ =>
    show win0_4.index t 1 * 16 + 1 * r.val = r.val
    rw [hf.2.2.2.2.2.2.2.2.2.1]; (try unfold rowOf); (try unfold colOf); omega

end Cert.KernelIdeal.BlockValue

end
-- ==== Proof.Accum.lean ====
/-
  What the output block holds after every grid point: by induction on the point, never by enumerating the grid.

  The three case values (first, middle, last step of an output block's eight) read at an entry are the three
  step equations of the accumulation's arithmetic: 0 plus the first run of 512 columns; the value before plus
  the next run; and, at the eighth step, that sum plus the bias plus the scaled rank-16 term. So after point t
  entry (p, q) of the block holds the row product over the columns done so far, and after a block's last point
  the finished entry of the padded result.
-/
import proofs.«135984_j44006234915015_2_alg».proof.Proof.Pieces
import proofs.«135984_j44006234915015_2_alg».proof.Proof.Payload
import proofs.«135984_j44006234915015_2_alg».proof.Proof.Blocks

set_option maxRecDepth 16384

noncomputable section

namespace Cert.KernelIdeal.Accumulated

open Idealize.ShloMosaic Idealize.ShloMosaic.TcCoe Idealize.SL.Sem Idealize.ShloMosaic.ValueIdx
open Cert.KernelIdeal Cert.KernelIdeal.Gen Cert.LoraSteps
open Cert.KernelIdeal.PayloadValue

section Arithmetic
variable (X W : ℕ → ℕ → EReal) (bias : ℕ → EReal) (B xA : ℕ → ℕ → EReal)

/-- The block after point t, as a block: entry (p, q) at the accumulation's value. -/
def blockAfter (t : ℕ) : FVec Ideal S2048x512 .f32 :=
  fun y => afterStep X W bias B xA scale t (y 0).val (y 1).val

theorem blockAfter_apply (t : ℕ) (p : Fin 2048) (q : Fin 512) :
    blockAfter X W bias B xA t (ix2 p q) = afterStep X W bias B xA scale t p.val q.val := rfl

/-- One accumulation step at an entry, the two input blocks read as runs of rows of X and W. -/
theorem step_value (t : ℕ) (acc : FVec Ideal S2048x512 .f32) (xblk : FVec Ideal S2048x512 .bf16)
    (wblk : FVec Ideal S512x512 .bf16)
    (hx : ∀ (p : Fin 2048) (kk : Fin 512), xblk (ix2 p kk) = X (rowOf t p.val) (512 * (t % 8) + kk.val))
    (hw : ∀ (q : Fin 512) (kk : Fin 512), wblk (ix2 q kk) = W (colOf t q.val) (512 * (t % 8) + kk.val))
    (p : Fin 2048) (q : Fin 512) :
    k0_pay2 (F := Ideal) acc xblk wblk (ix2 p q) = acc (ix2 p q) + stepTerm X W t p.val q.val := by
  refine (accumulate_apply acc xblk wblk p q).trans ?_
  unfold stepTerm
  refine congrArg (acc (ix2 p q) + ·) (Finset.sum_congr rfl fun kk _ => ?_)
  rw [hx, hw]

/-- A block's first point leaves the first run of 512 columns. -/
theorem first_value (t : ℕ) (h : t % 8 = 0) (xblk : FVec Ideal S2048x512 .bf16) (wblk : FVec Ideal S512x512 .bf16)
    (hx : ∀ (p : Fin 2048) (kk : Fin 512), xblk (ix2 p kk) = X (rowOf t p.val) (512 * (t % 8) + kk.val))
    (hw : ∀ (q : Fin 512) (kk : Fin 512), wblk (ix2 q kk) = W (colOf t q.val) (512 * (t % 8) + kk.val)) :
    k0_pay2 (F := Ideal) (k0_pay1 (F := Ideal)) xblk wblk = blockAfter X W bias B xA t := by
  funext y
  obtain ⟨p, q, rfl⟩ : ∃ (p : Fin 2048) (q : Fin 512), y = ix2 p q := ⟨y 0, y 1, eq_ix2 y⟩
  rw [step_value X W t _ xblk wblk hx hw p q, reset_apply, blockAfter_apply]
  exact (afterStep_first X W bias B xA scale t p.val q.val h).symm

/-- A middle point adds its run to what the point before left. -/
theorem middle_value (t : ℕ) (h0 : ¬t % 8 = 0) (h7 : ¬t % 8 = 7) (xblk : FVec Ideal S2048x512 .bf16)
    (wblk : FVec Ideal S512x512 .bf16)
    (hx : ∀ (p : Fin 2048) (kk : Fin 512), xblk (ix2 p kk) = X (rowOf t p.val) (512 * (t % 8) + kk.val))
    (hw : ∀ (q : Fin 512) (kk : Fin 512), wblk (ix2 q kk) = W (colOf t q.val) (512 * (t % 8) + kk.val)) :
    k0_pay2 (F := Ideal) (blockAfter X W bias B xA (t - 1)) xblk wblk = blockAfter X W bias B xA t := by
  funext y
  obtain ⟨p, q, rfl⟩ : ∃ (p : Fin 2048) (q : Fin 512), y = ix2 p q := ⟨y 0, y 1, eq_ix2 y⟩
  rw [step_value X W t _ xblk wblk hx hw p q, blockAfter_apply, blockAfter_apply]
  exact (afterStep_middle X W bias B xA scale t p.val q.val h0 h7).symm

/-- A block's last point adds its run, then the bias and the scaled rank-16 term: the finished entry. -/
theorem last_value (t : ℕ) (h7 : t % 8 = 7) (xblk : FVec Ideal S2048x512 .bf16) (wblk : FVec Ideal S512x512 .bf16)
    (biasblk : FVec Ideal S1x512 .f32) (bblk : FVec Ideal S512x16 .f32) (xablk : FVec Ideal S2048x16 .f32)
    (hx : ∀ (p : Fin 2048) (kk : Fin 512), xblk (ix2 p kk) = X (rowOf t p.val) (512 * (t % 8) + kk.val))
    (hw : ∀ (q : Fin 512) (kk : Fin 512), wblk (ix2 q kk) = W (colOf t q.val) (512 * (t % 8) + kk.val))
    (hbias : ∀ q : Fin 512, biasblk (ix2 (0 : Fin 1) q) = bias (colOf t q.val))
    (hb : ∀ (q : Fin 512) (r : Fin 16), bblk (ix2 q r) = B (colOf t q.val) r.val)
    (hxa : ∀ (p : Fin 2048) (r : Fin 16), xablk (ix2 p r) = xA (rowOf t p.val) r.val) :
    k0_pay3 (F := Ideal) bblk xablk (k0_pay2 (F := Ideal) (blockAfter X W bias B xA (t - 1)) xblk wblk) biasblk
      = blockAfter X W bias B xA t := by
  funext y
  obtain ⟨p, q, rfl⟩ : ∃ (p : Fin 2048) (q : Fin 512), y = ix2 p q := ⟨y 0, y 1, eq_ix2 y⟩
  refine (finish_apply bblk xablk _ biasblk p q).trans ?_
  rw [step_value X W t _ xblk wblk hx hw p q, blockAfter_apply, blockAfter_apply, hbias,
    afterStep_last X W bias B xA scale t p.val q.val h7]
  refine congrArg (_ + ·) (congrArg (· * scale) (Finset.sum_congr rfl fun r _ => ?_))
  rw [hxa, hb]

end Arithmetic

variable (m : (ℓ : Loc nD τ sig) → Buf (Elt Ideal) ℓ) (c : Dev nD)

/-- The five staged arrays, read at natural-number coordinates. -/
local notation "Xs" => nat2 (V (F := Ideal) m c main_v3 : S8192x4096.Idx → EReal)
local notation "Ws" => nat2 (V (F := Ideal) m c main_v4 : S11264x4096.Idx → EReal)
local notation "bs" => (fun N : ℕ => nat2 (V (F := Ideal) m c main_v5 : S1x11264.Idx → EReal) 0 N)
local notation "Bs" => nat2 (V (F := Ideal) m c main_v2 : S11264x16.Idx → EReal)
local notation "xAs" => nat2 (V (F := Ideal) m c main_v7 : S8192x16.Idx → EReal)

/-- One point, given the point before: the case the point is in decides which step equation applies. -/
theorem point_eq (t : Fin cfg0.N)
    (hprev : ¬t.val % 8 = 0 →
      outsAt0 m c (t.val - 1) (Nat.lt_of_le_of_lt (Nat.sub_le _ _) t.isLt) = blockAfter Xs Ws bs Bs xAs (t.val - 1)) :
    outsAt0 m c t.val t.isLt = blockAfter Xs Ws bs Bs xAs t.val := by
  by_cases h0 : t.val % 8 = 0
  · have h7 : ¬t.val % 8 = 7 := by omega
    rw [outsAt0_A m c t h0 h7, CaseValue.first]
    exact first_value Xs Ws bs Bs xAs t.val h0 (iblk m c 0 t) (iblk m c 1 t)
      (BlockValue.x_block m c t) (BlockValue.w_block m c t)
  · by_cases h7 : t.val % 8 = 7
    · rw [outsAt0_C m c t h0 h7, hprev h0, CaseValue.last]
      exact last_value Xs Ws bs Bs xAs t.val h7 (iblk m c 0 t) (iblk m c 1 t) (iblk m c 2 t) (iblk m c 3 t)
        (iblk m c 4 t) (BlockValue.x_block m c t) (BlockValue.w_block m c t)
        (fun q => BlockValue.bias_block m c t 0 q) (BlockValue.b_block m c t) (BlockValue.xa_block m c t)
    · rw [outsAt0_B m c t h0 h7, hprev h0, CaseValue.middle]
      exact middle_value Xs Ws bs Bs xAs t.val h0 h7 (iblk m c 0 t) (iblk m c 1 t)
        (BlockValue.x_block m c t) (BlockValue.w_block m c t)

/-- After every point the output's staging block holds the accumulation's value. -/
theorem outsAt_eq : ∀ (n : ℕ) (h : n < cfg0.N), outsAt0 m c n h = blockAfter Xs Ws bs Bs xAs n
  | 0, h => point_eq m c ⟨0, h⟩ (fun h0 => absurd (Nat.zero_mod 8) h0)
  | n + 1, h => point_eq m c ⟨n + 1, h⟩ (fun _ => outsAt_eq n (Nat.lt_of_succ_lt h))

end Cert.KernelIdeal.Accumulated

end
-- ==== Proof.Cover.lean ====
/-
  The blocks the output window writes back cover the whole padded result array.

  The result array has 8192 rows and 11264 columns; the output window's blocks have 2048 rows and 512 columns, so the
  array is 4 block rows by 22 block columns. The grid is [4, 22, 8] in row-major order: point t has coordinates
  (t / 176, (t / 8) % 22, t % 8), its block is block (t / 176, (t / 8) % 22), and the block is written back at the last
  step of the innermost axis, t % 8 = 7. Entry (i0, i1) lies in block (i0 / 2048, i1 / 512), which the point
  176 · (i0 / 2048) + 8 · (i1 / 512) + 7 writes back.
-/
import proofs.«135984_j44006234915015_2_alg».proof.Proof.Gen.KernelIdeal.Frame
import proofs.«135984_j44006234915015_2_alg».proof.Proof.Blocks
import Idealize.ShloMosaic.Lib.Pipeline.Value

set_option maxRecDepth 16384

noncomputable section

namespace Cert.KernelIdeal.OutputCover

open Idealize.ShloMosaic Idealize.ShloMosaic.TcCoe Idealize.SL.Sem
open Cert.KernelIdeal Cert.KernelIdeal.Gen

/-- No block of the output window is cut short by the array's edge: at every point it has its full 2048 rows and 512
    columns (8192 = 4 · 2048 and 11264 = 22 · 512). -/
theorem full_extent : ∀ t : Fin cfg0.N,
    win0_5.xsize (grid0.coords t) 0 = 2048 ∧ win0_5.xsize (grid0.coords t) 1 = 512 :=
  (by decide +kernel : ∀ t : Fin grid0.N,
    win0_5.xsize (grid0.coords t) 0 = 2048 ∧ win0_5.xsize (grid0.coords t) 1 = 512)

/-- Every entry of the padded result array lies in a block that some point writes back. -/
theorem flushed_blocks_cover (c : Dev nD) :
    ∀ i : ((cfg0.win 5).arr.view.loc (c.tc : Thread nD τ)).2.ty.Idx,
      ∃ t : Fin cfg0.N, (cfg0.win 5).flush t = true ∧ i ∈ ((cfg0.win 5).blk t).view.set := by
  intro i
  have hN : cfg0.N = 704 := N_0
  have h0 : (i 0 : Nat) < 8192 := (i 0).isLt
  have h1 : (i 1 : Nat) < 11264 := (i 1).isLt
  have ht : 176 * ((i 0 : Nat) / 2048) + 8 * ((i 1 : Nat) / 512) + 7 < cfg0.N := by rw [hN]; omega
  obtain ⟨t, htv⟩ : ∃ t : Fin cfg0.N, t.val = 176 * ((i 0 : Nat) / 2048) + 8 * ((i 1 : Nat) / 512) + 7 := ⟨⟨_, ht⟩, rfl⟩
  have hf := BlockValue.index_facts t
  have hx := full_extent t
  refine ⟨t, (flush0_5 t).mpr (by rw [htv]; omega), ?_⟩
  show i ∈ ((View.whole main_v8).slice (win0_5.rect t)).set
  rw [View.set_slice_whole, Rect.mem_set_unit]
  intro a
  match a with
  | ⟨0, _⟩ =>
    show win0_5.index t 0 * win0_5.size 0 ≤ (i 0 : Nat)
      ∧ (i 0 : Nat) < win0_5.index t 0 * win0_5.size 0 + win0_5.xsize (grid0.coords t) 0
    rw [hf.2.2.2.2.2.2.2.2.2.2.1, hx.1, show win0_5.size 0 = 2048 from rfl, htv]
    omega
  | ⟨1, _⟩ =>
    show win0_5.index t 1 * win0_5.size 1 ≤ (i 1 : Nat)
      ∧ (i 1 : Nat) < win0_5.index t 1 * win0_5.size 1 + win0_5.xsize (grid0.coords t) 1
    rw [hf.2.2.2.2.2.2.2.2.2.2.2, hx.2, show win0_5.size 1 = 512 from rfl, htv]
    omega

end Cert.KernelIdeal.OutputCover

end
-- ==== Proof.HostPrefix.lean ====
/-
  The arrays the kernel's region reads, entry by entry, in terms of the program's five arguments.

  Before the region the program appends 256 rows of zeros to W, to the bias and to B (11008 rows become 11264), changes
  the float format of x and of the padded W (no change of value over the extended reals), views the padded bias as one
  row, and forms the projection xA = x · Aᵀ, a [8192, 16] array, by transposing A and contracting the 4096 columns.
  Each lemma below reads one of these arrays at an index: below row 11008 a padded array is the argument it was padded
  from, and an entry of xA is the sum over the 4096 columns of the products of a row of x and a row of A.
-/
import proofs.«135984_j44006234915015_2_alg».proof.Proof.Gen.KernelIdeal.Frame
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.ValueIdx
open Idealize.ShloMosaic.StableHlo

/-! ## The operations at an index -/

/-- W with 256 rows appended: a row below 11008 is W's row. -/
theorem padded_W_apply (x : FVec Ideal S11008x4096 .f32) (v : FVec Ideal S_ .f32) (n : Fin 11264) (hn : n.val < 11008) (k : Fin 4096) :
    pad S11264x4096 ![0, 0] ![256, 0] ![0, 0] x v Facts₀.pads_S11008x4096_S11264x4096_02560_000 Facts₀.h_S_ (ix2 n k)
      = x (ix2 ⟨n.val, hn⟩ k) :=
  pad_apply_of_inside _ _ _ x v _ _ (ix2 n k) (ix2 ⟨n.val, hn⟩ k) (fun a => match a with
    | ⟨0, _⟩ => by show n.val = 0 + n.val * (0 + 1); omega
    | ⟨1, _⟩ => by show k.val = 0 + k.val * (0 + 1); omega)

/-- B with 256 rows appended: a row below 11008 is B's row. -/
theorem padded_B_apply (x : FVec Ideal S11008x16 .f32) (v : FVec Ideal S_ .f32) (n : Fin 11264) (hn : n.val < 11008) (r : Fin 16) :
    pad S11264x16 ![0, 0] ![256, 0] ![0, 0] x v Facts₀.pads_S11008x16_S11264x16_02560_000 Facts₀.h_S_ (ix2 n r)
      = x (ix2 ⟨n.val, hn⟩ r) :=
  pad_apply_of_inside _ _ _ x v _ _ (ix2 n r) (ix2 ⟨n.val, hn⟩ r) (fun a => match a with
    | ⟨0, _⟩ => by show n.val = 0 + n.val * (0 + 1); omega
    | ⟨1, _⟩ => by show r.val = 0 + r.val * (0 + 1); omega)

/-- The bias with 256 entries appended: an entry below 11008 is the bias's. -/
theorem padded_bias_apply (x : FVec Ideal S11008 .f32) (v : FVec Ideal S_ .f32) (n : Fin 11264) (hn : n.val < 11008) :
    pad S11264 ![0] ![256] ![0] x v Facts₀.pads_S11008_S11264_02560 Facts₀.h_S_ (ix1 n) = x (ix1 ⟨n.val, hn⟩) :=
  pad_apply_of_inside _ _ _ x v _ _ (ix1 n) (ix1 ⟨n.val, hn⟩) (fun a => match a with
    | ⟨0, _⟩ => by show n.val = 0 + n.val * (0 + 1); omega)

/-- A vector of 11264 entries viewed as one row: entry (0, n) of the row is entry n of the vector. -/
theorem as_row_apply (y : FVec Ideal S11264 .f32) (n : Fin 11264) :
    shapeCast S1x11264 y Facts₀.shapeCasts_S11264_S1x11264 (ix2 0 n) = y (ix1 n) :=
  shapeCast_apply y _ (ix2 0 n) (ix1 n) (by
    rw [Shape.rowMajor_val_one, Shape.rowMajor_val_two]
    show n.val = 0 * 11264 + n.val
    omega)

/-- A transposed: entry (k, r) of Aᵀ is entry (r, k) of A. -/
theorem transposed_A_apply (A : FVec Ideal S16x4096 .f32) (k : Fin 4096) (r : Fin 16) :
    transpose S4096x16 [1, 0] A Facts₀.transposes_S16x4096_S4096x16_1_0 (ix2 k r) = A (ix2 r k) :=
  transpose_apply [1, 0] A Facts₀.transposes_S16x4096_S4096x16_1_0 (ix2 k r) (ix2 r k) (fun b => match b with
    | ⟨0, _⟩ => rfl
    | ⟨1, _⟩ => rfl)

/-- The product of a [8192, 4096] array and a [4096, 16] array over the extended reals: entry (a, r) is the sum over
    the 4096 shared positions. -/
theorem product_apply (x : FVec Ideal S8192x4096 .f32) (y : FVec Ideal S4096x16 .f32) (a : Fin 8192) (r : Fin 16) :
    Host.dotGeneral (F := Ideal) dot_S8192x4096_S4096x16_S8192x16_1_0_0_1_n_n (some .fp32) x y (ix2 a r)
      = ∑ k : Fin 4096, x (ix2 a k) * y (ix2 k r) := by
  simp only [Host.dotGeneral]
  rw [Ideal.dotGeneral_apply, ← Equiv.sum_comp (ValueIdx.contrEquiv1 dot_S8192x4096_S4096x16_S8192x16_1_0_0_1_n_n 4096 rfl rfl).symm]
  refine Finset.sum_congr rfl fun k _ => ?_
  have hk := ValueIdx.contrEquiv1_symm_val dot_S8192x4096_S4096x16_S8192x16_1_0_0_1_n_n 4096 rfl rfl k
  have el : dot_S8192x4096_S4096x16_S8192x16_1_0_0_1_n_n.lhsIdx (ix2 a r) ((ValueIdx.contrEquiv1 dot_S8192x4096_S4096x16_S8192x16_1_0_0_1_n_n 4096 rfl rfl).symm k) = ix2 a k :=
    funext fun b => Fin.ext (by
      match b with
      | ⟨0, _⟩ =>
        show (dot_S8192x4096_S4096x16_S8192x16_1_0_0_1_n_n.lhsIdx (ix2 a r) _ 0).val = a.val
        unfold DotDims.lhsIdx
        rw [dif_neg (show ¬(0 : Fin S8192x4096.rank) ∈ dot_S8192x4096_S4096x16_S8192x16_1_0_0_1_n_n.lhsBatch by decide),
          dif_pos (show (0 : Fin S8192x4096.rank) ∈ dot_S8192x4096_S4096x16_S8192x16_1_0_0_1_n_n.lhsNonContracting by decide)]
        rfl
      | ⟨1, _⟩ =>
        exact (dot_S8192x4096_S4096x16_S8192x16_1_0_0_1_n_n.lhsIdx_val_of_single rfl (ix2 a r) _).trans hk)
  have er : dot_S8192x4096_S4096x16_S8192x16_1_0_0_1_n_n.rhsIdx (ix2 a r) ((ValueIdx.contrEquiv1 dot_S8192x4096_S4096x16_S8192x16_1_0_0_1_n_n 4096 rfl rfl).symm k) = ix2 k r :=
    funext fun b => Fin.ext (by
      match b with
      | ⟨0, _⟩ =>
        exact (dot_S8192x4096_S4096x16_S8192x16_1_0_0_1_n_n.rhsIdx_val_of_single rfl (ix2 a r) _).trans hk
      | ⟨1, _⟩ =>
        show (dot_S8192x4096_S4096x16_S8192x16_1_0_0_1_n_n.rhsIdx (ix2 a r) _ 1).val = r.val
        unfold DotDims.rhsIdx
        rw [dif_neg (show ¬(1 : Fin S4096x16.rank) ∈ dot_S8192x4096_S4096x16_S8192x16_1_0_0_1_n_n.rhsBatch by decide),
          dif_pos (show (1 : Fin S4096x16.rank) ∈ dot_S8192x4096_S4096x16_S8192x16_1_0_0_1_n_n.rhsNonContracting by decide)]
        rfl)
  rw [el, er]

/-! ## The staged arrays as the operations' terms over the arguments -/

variable (m : (ℓ : Loc nD τ sig) → Buf (Elt Ideal) ℓ) (c : Dev nD)

/-- x in the second float format. -/
theorem array_x : (V (F := Ideal) m c main_v3 : S8192x4096.Idx → EReal)
    = (truncf (F := Ideal) .bf16 (m ((c : Thread nD τ).loc main_arg0) : FVec Ideal S8192x4096 .f32) Facts₀.bitsLt_bf16_f32 : S8192x4096.Idx → EReal) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- W padded, in the second float format. -/
theorem array_W : (V (F := Ideal) m c main_v4 : S11264x4096.Idx → EReal)
    = (truncf (F := Ideal) .bf16
        (pad S11264x4096 ![0, 0] ![256, 0] ![0, 0] (m ((c : Thread nD τ).loc main_arg1) : FVec Ideal S11008x4096 .f32)
          (sitofp (F := Ideal) .f32 (constantI S_ 32 0#32) : FVec Ideal S_ .f32)
          Facts₀.pads_S11008x4096_S11264x4096_02560_000 Facts₀.h_S_ : FVec Ideal S11264x4096 .f32)
        Facts₀.bitsLt_bf16_f32 : S11264x4096.Idx → EReal) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The bias padded, as one row. -/
theorem array_bias : (V (F := Ideal) m c main_v5 : S1x11264.Idx → EReal)
    = (shapeCast S1x11264
        (pad S11264 ![0] ![256] ![0] (m ((c : Thread nD τ).loc main_arg2) : FVec Ideal S11008 .f32)
          (sitofp (F := Ideal) .f32 (constantI S_ 32 0#32) : FVec Ideal S_ .f32)
          Facts₀.pads_S11008_S11264_02560 Facts₀.h_S_ : FVec Ideal S11264 .f32)
        Facts₀.shapeCasts_S11264_S1x11264 : S1x11264.Idx → EReal) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- B padded. -/
theorem array_B : (V (F := Ideal) m c main_v2 : S11264x16.Idx → EReal)
    = (pad S11264x16 ![0, 0] ![256, 0] ![0, 0] (m ((c : Thread nD τ).loc main_arg3) : FVec Ideal S11008x16 .f32)
          (sitofp (F := Ideal) .f32 (constantI S_ 32 0#32) : FVec Ideal S_ .f32)
          Facts₀.pads_S11008x16_S11264x16_02560_000 Facts₀.h_S_ : S11264x16.Idx → EReal) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The projection xA = x · Aᵀ. -/
theorem array_xA : (V (F := Ideal) m c main_v7 : S8192x16.Idx → EReal)
    = (Host.dotGeneral (F := Ideal) (φ₁ := .f32) (φ₂ := .f32) dot_S8192x4096_S4096x16_S8192x16_1_0_0_1_n_n (some .fp32)
        (m ((c : Thread nD τ).loc main_arg0) : FVec Ideal S8192x4096 .f32)
        (transpose S4096x16 [1, 0] (m ((c : Thread nD τ).loc main_arg4) : FVec Ideal S16x4096 .f32) Facts₀.transposes_S16x4096_S4096x16_1_0 : FVec Ideal S4096x16 .f32)
        : S8192x16.Idx → EReal) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-! ## The staged arrays at an index -/

/-- The staged x is x. -/
theorem staged_x (a : Fin 8192) (k : Fin 4096) :
    (V (F := Ideal) m c main_v3 : S8192x4096.Idx → EReal) (ix2 a k) = m ((c : Thread nD τ).loc main_arg0) (ix2 a k) := by
  rw [array_x m c]
  rfl

/-- The staged W, below row 11008, is W. -/
theorem staged_W (n : Fin 11264) (hn : n.val < 11008) (k : Fin 4096) :
    (V (F := Ideal) m c main_v4 : S11264x4096.Idx → EReal) (ix2 n k) = m ((c : Thread nD τ).loc main_arg1) (ix2 ⟨n.val, hn⟩ k) := by
  rw [array_W m c, ValueIdx.truncf_apply]
  exact padded_W_apply _ _ n hn k

/-- The staged bias row, below column 11008, is the bias. -/
theorem staged_bias (n : Fin 11264) (hn : n.val < 11008) :
    (V (F := Ideal) m c main_v5 : S1x11264.Idx → EReal) (ix2 0 n) = m ((c : Thread nD τ).loc main_arg2) (ix1 ⟨n.val, hn⟩) := by
  rw [array_bias m c, as_row_apply]
  exact padded_bias_apply _ _ n hn

/-- The staged B, below row 11008, is B. -/
theorem staged_B (n : Fin 11264) (hn : n.val < 11008) (r : Fin 16) :
    (V (F := Ideal) m c main_v2 : S11264x16.Idx → EReal) (ix2 n r) = m ((c : Thread nD τ).loc main_arg3) (ix2 ⟨n.val, hn⟩ r) := by
  rw [array_B m c]
  exact padded_B_apply _ _ n hn r

/-- The staged projection: entry (a, r) is the row a of x against the row r of A. -/
theorem staged_xA (a : Fin 8192) (r : Fin 16) :
    @Eq EReal ((V (F := Ideal) m c main_v7 : S8192x16.Idx → EReal) (ix2 a r))
      (∑ k : Fin 4096, HMul.hMul (α := EReal) (β := EReal) (γ := EReal)
        (m ((c : Thread nD τ).loc main_arg0) (ix2 a k)) (m ((c : Thread nD τ).loc main_arg4) (ix2 r k))) := by
  rw [array_xA m c, product_apply]
  refine Finset.sum_congr rfl fun k _ => ?_
  rw [transposed_A_apply]

end Cert.KernelIdeal.HostValue

end
-- ==== Proof.Bridge.lean ====
/-
  Below row 11008 the padded arrays are the arguments, so an entry of the padded result in a column
  n < 11008 is the specification's result with the low-rank term taken through the projection.

  The kernel's arrays W, bias and B carry 11264 rows, of which the first 11008 are the arguments' and
  the rest are zero; the bias is laid out as one row; xA holds the projections
  xA (m, r) = Σ_k x (m, k) · A (r, k). Reading a padded array at natural-number coordinates that lie
  inside its extents is reading it at the index with those coordinates, and a column n < 11008,
  seen as a row number below 11264, selects the argument's own row n. Entry (m, n) of the padded
  result is therefore, summand by summand, the dense part plus the scaled low-rank part of the
  specification. Nothing is regrouped, so no finiteness is needed and the scale is never evaluated.
-/
import proofs.«135984_j44006234915015_2_alg».proof.Proof.Spec
import proofs.«135984_j44006234915015_2_alg».proof.Proof.Steps

noncomputable section

namespace Cert.LoraBridge

open Cert.LoraSpec Cert.LoraSteps Idealize.ShloMosaic Idealize.ShloMosaic.ValueIdx

/-- A column of the result is a row number of the padded arrays. -/
theorem col_lt_padded (n : Fin 11008) : n.val < 11264 := Nat.lt_of_lt_of_le n.isLt (by decide)

/-- x is not padded: at row m, column k it is the argument. -/
theorem x_read (X : (⟨2, ![8192, 4096]⟩ : Shape).Idx → EReal) (x : ShX.Idx → EReal)
    (hX : ∀ (a : Fin 8192) (k : Fin 4096), X (ix2 a k) = x (ix2 a k)) (a : Fin 8192) (k : Fin 4096) :
    nat2 X a.val k.val = x (ix2 a k) :=
  (nat2_val X a k).trans (hX a k)

/-- Row n < 11008 of the padded W is row n of W. -/
theorem padded_W_read (Wp : (⟨2, ![11264, 4096]⟩ : Shape).Idx → EReal) (W : ShW.Idx → EReal)
    (hW : ∀ (n : Fin 11264) (hn : n.val < 11008) (k : Fin 4096), Wp (ix2 n k) = W (ix2 ⟨n.val, hn⟩ k))
    (n : Fin 11008) (k : Fin 4096) :
    nat2 Wp n.val k.val = W (ix2 n k) :=
  (nat2_val Wp (⟨n.val, col_lt_padded n⟩ : Fin 11264) k).trans (hW ⟨n.val, col_lt_padded n⟩ n.isLt k)

/-- Column n < 11008 of the one-row padded bias is entry n of the bias. -/
theorem padded_bias_read (bp : (⟨2, ![1, 11264]⟩ : Shape).Idx → EReal) (b : Shb.Idx → EReal)
    (hb : ∀ (n : Fin 11264) (hn : n.val < 11008), bp (ix2 (0 : Fin 1) n) = b (ix1 ⟨n.val, hn⟩))
    (n : Fin 11008) :
    nat2 bp 0 n.val = b (ix1 n) :=
  (nat2_val bp (0 : Fin 1) (⟨n.val, col_lt_padded n⟩ : Fin 11264)).trans (hb ⟨n.val, col_lt_padded n⟩ n.isLt)

/-- Row n < 11008 of the padded B is row n of B. -/
theorem padded_B_read (Bp : (⟨2, ![11264, 16]⟩ : Shape).Idx → EReal) (B : ShB.Idx → EReal)
    (hB : ∀ (n : Fin 11264) (hn : n.val < 11008) (r : Fin 16), Bp (ix2 n r) = B (ix2 ⟨n.val, hn⟩ r))
    (n : Fin 11008) (r : Fin 16) :
    nat2 Bp n.val r.val = B (ix2 n r) :=
  (nat2_val Bp (⟨n.val, col_lt_padded n⟩ : Fin 11264) r).trans (hB ⟨n.val, col_lt_padded n⟩ n.isLt r)

/-- The precomputed projection at row m, direction r is the row of x against row r of A. -/
theorem xA_read (xA : (⟨2, ![8192, 16]⟩ : Shape).Idx → EReal) (x : ShX.Idx → EReal) (A : ShA.Idx → EReal)
    (hxA : ∀ (a : Fin 8192) (r : Fin 16), xA (ix2 a r) = ∑ k : Fin 4096, x (ix2 a k) * A (ix2 r k))
    (a : Fin 8192) (r : Fin 16) :
    nat2 xA a.val r.val = ∑ k : Fin 4096, x (ix2 a k) * A (ix2 r k) :=
  (nat2_val xA a r).trans (hxA a r)

/-- Entry (m, n) of the padded result, for a column n < 11008, is the specification's result through
    the projection at (m, n). -/
theorem entry_eq_viaProj (scale : EReal)
    (X : (⟨2, ![8192, 4096]⟩ : Shape).Idx → EReal) (Wp : (⟨2, ![11264, 4096]⟩ : Shape).Idx → EReal)
    (bp : (⟨2, ![1, 11264]⟩ : Shape).Idx → EReal) (Bp : (⟨2, ![11264, 16]⟩ : Shape).Idx → EReal)
    (xA : (⟨2, ![8192, 16]⟩ : Shape).Idx → EReal)
    (x : ShX.Idx → EReal) (W : ShW.Idx → EReal) (b : Shb.Idx → EReal) (B : ShB.Idx → EReal) (A : ShA.Idx → EReal)
    (hX : ∀ (a : Fin 8192) (k : Fin 4096), X (ix2 a k) = x (ix2 a k))
    (hW : ∀ (n : Fin 11264) (hn : n.val < 11008) (k : Fin 4096), Wp (ix2 n k) = W (ix2 ⟨n.val, hn⟩ k))
    (hb : ∀ (n : Fin 11264) (hn : n.val < 11008), bp (ix2 (0 : Fin 1) n) = b (ix1 ⟨n.val, hn⟩))
    (hB : ∀ (n : Fin 11264) (hn : n.val < 11008) (r : Fin 16), Bp (ix2 n r) = B (ix2 ⟨n.val, hn⟩ r))
    (hxA : ∀ (a : Fin 8192) (r : Fin 16), xA (ix2 a r) = ∑ k : Fin 4096, x (ix2 a k) * A (ix2 r k))
    (a : Fin 8192) (n : Fin 11008) :
    entry (nat2 X) (nat2 Wp) (fun N => nat2 bp 0 N) (nat2 Bp) (nat2 xA) scale a.val n.val
      = viaProj scale x W b B A (ix2 a n) := by
  show (rowDot (nat2 X a.val) (nat2 Wp n.val) 4096 + nat2 bp 0 n.val)
        + (∑ r : Fin 16, nat2 xA a.val r.val * nat2 Bp n.val r.val) * scale
      = (∑ k : Fin 4096, x (ix2 a k) * W (ix2 n k) + b (ix1 n))
        + (∑ r : Fin 16, (∑ k : Fin 4096, x (ix2 a k) * A (ix2 r k)) * B (ix2 n r)) * scale
  have hdense : rowDot (nat2 X a.val) (nat2 Wp n.val) 4096 = ∑ k : Fin 4096, x (ix2 a k) * W (ix2 n k) := by
    rw [rowDot_eq_sum]
    exact Finset.sum_congr rfl fun k _ => by rw [x_read X x hX a k, padded_W_read Wp W hW n k]
  have hlow : ∑ r : Fin 16, nat2 xA a.val r.val * nat2 Bp n.val r.val
      = ∑ r : Fin 16, (∑ k : Fin 4096, x (ix2 a k) * A (ix2 r k)) * B (ix2 n r) :=
    Finset.sum_congr rfl fun r _ => by rw [xA_read xA x A hxA a r, padded_B_read Bp B hB n r]
  rw [hdense, hlow, padded_bias_read bp b hb n]

end Cert.LoraBridge

end
-- ==== Proof.Final.lean ====
/-
  The kernel program's result array.

  The output window writes a block back only after the block's eighth point, and then the block holds the
  finished entries of the padded [8192, 11264] result; those blocks tile the padded array, so after the region
  the array is the padded result everywhere. The program's last operation keeps the first 11008 columns.
-/
import proofs.«135984_j44006234915015_2_alg».proof.Proof.Accum
import proofs.«135984_j44006234915015_2_alg».proof.Proof.Cover
import proofs.«135984_j44006234915015_2_alg».proof.Proof.HostPrefix
import proofs.«135984_j44006234915015_2_alg».proof.Proof.Bridge
import Idealize.ShloMosaic.Lib.Pipeline.Value
import Idealize.ShloMosaic.Lib.StableHlo.Run
import Idealize.ShloMosaic.Lib.ValueLayout

set_option maxRecDepth 16384

noncomputable section

namespace Cert.KernelIdeal.ResultValue

open Idealize.ShloMosaic Idealize.ShloMosaic.TcCoe Idealize.SL.Sem Idealize.ShloMosaic.ValueIdx
open Idealize.ShloMosaic.Pipeline (Dat)
open Cert.KernelIdeal Cert.KernelIdeal.Gen Cert.LoraSteps
open Cert.KernelIdeal.PayloadValue Cert.KernelIdeal.Accumulated

variable (m : (ℓ : Loc nD τ sig) → Buf (Elt Ideal) ℓ) (ρ : Dev nD → PrngReg) (c : Dev nD)

local notation "Xs" => nat2 (V (F := Ideal) m c main_v3 : S8192x4096.Idx → EReal)
local notation "Ws" => nat2 (V (F := Ideal) m c main_v4 : S11264x4096.Idx → EReal)
local notation "bs" => (fun N : ℕ => nat2 (V (F := Ideal) m c main_v5 : S1x11264.Idx → EReal) 0 N)
local notation "Bs" => nat2 (V (F := Ideal) m c main_v2 : S11264x16.Idx → EReal)
local notation "xAs" => nat2 (V (F := Ideal) m c main_v7 : S8192x16.Idx → EReal)

/-- The padded result: every entry finished. -/
def padded : Buf (Elt Ideal) ((c : Thread nD τ).loc main_v8) :=
  fun i => entry Xs Ws bs Bs xAs scale (i 0).val (i 1).val

/-- After a block's last point, entry y of the block is the padded result at the place the block's entry y sits. -/
theorem last_block_entry (t : Fin cfg0.N) (h7 : t.val % 8 = 7) (y : S2048x512.Idx) :
    blockAfter Xs Ws bs Bs xAs t.val y = padded m c (((cfg0.win 5).blk t).view.emb y) := by
  have hN : t.val < 704 := lt_of_lt_of_eq t.isLt (show cfg0.N = 704 from N_0)
  have hf5 := (BlockValue.index_facts t).2.2.2.2.2.2.2.2.2.2
  unfold padded blockAfter afterStep
  rw [if_pos h7]
  refine congrArg₂ (entry Xs Ws bs Bs xAs scale) ?_ ?_
  · show rowOf t.val (y 0).val = win0_5.index t 0 * 2048 + 1 * (y 0).val
    rw [hf5.1]; unfold rowOf; omega
  · show colOf t.val (y 1).val = win0_5.index t 1 * 512 + 1 * (y 1).val
    rw [hf5.2]; unfold colOf; omega

/-- A written-back block is the padded result's block. -/
theorem flushed_eq (t : Fin cfg0.N) (hf : (cfg0.win 5).flush t = true) :
    (dats m 0 c).flushed 5 t = ((cfg0.win 5).blk t).view.read (Elt Ideal) (padded m c) := by
  have h7 : t.val % 8 = 7 := (flush0_5 t).mp hf
  show (cfg0.win 5).cut (grid0.coords t) ((dats m 0 c).after 5 t) = _
  rw [after0_5, outsAt_eq]
  funext y
  rw [View.read_apply]
  exact last_block_entry m c t h7 y

/-- So after the region the output array is the padded result. -/
theorem final_array : (dats m 0 c).arrAt 5 cfg0.N = padded m c :=
  (dats m 0 c).arrAt_eq_of_cover 5 (padded m c) (flushed_eq m c) (OutputCover.flushed_blocks_cover c)

/-- The program's result: the first 11008 columns of the padded result. -/
def result : Buf (Elt Ideal) ((c : Thread nD τ).loc main_v9) :=
  extractStridedSlice S8192x11008 ![0, 0] (padded m c) slices_S8192x11264_S8192x11008_0_0

/-- The operation after the region slices the region's array. -/
theorem tail_value : Pipeline.afterTail₀ cfgs (dats m) 0 (V0 m) [hostOps1] c main_v9 = result m c := by
  unfold Pipeline.afterTail₀
  show StableHlo.after hostOps1 _ (Proc.devRef .tc main_v9) = _
  after_results
  exact congrArg (fun X => extractStridedSlice S8192x11008 ![0, 0] X slices_S8192x11264_S8192x11008_0_0)
    ((Pipeline.withArrays_arr spec0 launch0.win.arr_inj c (V0 m c) (fun w => (dats m 0 c).arrAt w (cfgs 0).N) 5).trans
      (final_array m c))

/-- Every weakly fair execution of the program ends with the result array at `result` and the arguments as launched. -/
theorem run : θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The result, entry by entry, is the specification's value in the projection arrangement: below row 11008 the
    padded arrays are the arguments, and the staged projection is x · Aᵀ. -/
theorem result_eq : result m c
    = Cert.LoraSpec.viaProj scale (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨a, n, rfl⟩ : ∃ (a : Fin 8192) (n : Fin 11008), i = ix2 a n := ⟨i 0, i 1, eq_ix2 i⟩
  have hn : n.val < 11264 := by have := n.isLt; omega
  refine (slice2_axis1_apply 0 (padded m c) slices_S8192x11264_S8192x11008_0_0 a n ⟨n.val, hn⟩ (Nat.zero_add _).symm).trans ?_
  show entry Xs Ws bs Bs xAs scale a.val n.val = _
  exact Cert.LoraBridge.entry_eq_viaProj scale (V (F := Ideal) m c main_v3) (V (F := Ideal) m c main_v4)
    (V (F := Ideal) m c main_v5) (V (F := Ideal) m c main_v2) (V (F := Ideal) m c main_v7)
    (m ((c : Thread nD τ).loc main_arg0)) (m ((c : Thread nD τ).loc main_arg1)) (m ((c : Thread nD τ).loc main_arg2)) (m ((c : Thread nD τ).loc main_arg3)) (m ((c : Thread nD τ).loc main_arg4))
    (HostValue.staged_x m c) (HostValue.staged_W m c) (HostValue.staged_bias m c) (HostValue.staged_B m c)
    (HostValue.staged_xA m c) a n

end Cert.KernelIdeal.ResultValue

end
-- ==== Proof.lean ====
/-
  A dense layer with a rank-16 update, out = x · Wᵀ + bias + (x · Δᵀ) · (α / r) with Δ = B · A, α / r = 2:
  the kernel against its reference, over the extended reals.

  x [8192, 4096], W [11008, 4096], bias [11008], B [11008, 16], A [16, 4096]. Entry (m, n) of the result is

      (Σ_k x (m, k) · W (n, k) + bias n) + (low-rank term at (m, n)) · 2 .

  The reference forms Δ (n, k) = Σ_r B (n, r) · A (r, k) and contracts it with row m of x over the 4096
  columns. The kernel first projects, xA (m, r) = Σ_k x (m, k) · A (r, k), pads W, bias and B from 11008 to 11264
  rows with zeros, and then, block by block of [2048, 512] entries of the padded result, accumulates the dense
  product in eight runs of 512 columns, adding at the eighth step the bias and the scaled product of row m of xA
  with row n of B over the 16 rank directions; it keeps the first 11008 columns. Format changes are the
  identity over the extended reals and the scale is the same word in both programs, so three things are left:
  a sum taken in eight runs is the sum (addition of extended reals is associative and commutative); below row
  11008 the padded arrays are the arguments; and Σ_r (Σ_k x · A) · B = Σ_k x · (Σ_r B · A), which moves a factor
  across a sum and therefore needs the entries of x, A and B finite — the precondition.

  The modules: Spec (the two arrangements of the result), Algebra (their equality on finite entries), RefSide
  (the reference is the Δ arrangement), Steps (the arithmetic of the eight runs), Pieces and Payload (what the
  body stores, case by case and entry by entry), Blocks (which entries a block holds), Accum (the block after
  every grid point, by induction), Cover (the written-back blocks tile the padded array), HostPrefix (the staged
  arrays in terms of the arguments), Bridge (a padded entry is the projection arrangement), Final (the result
  array), Finite (the precondition makes the entries real).
-/
import proofs.«135984_j44006234915015_2_alg».proof.Defs
import proofs.«135984_j44006234915015_2_alg».proof.Proof.Gen.Kernel
import proofs.«135984_j44006234915015_2_alg».proof.Proof.Gen.Kernel.Skeleton
import proofs.«135984_j44006234915015_2_alg».proof.Proof.Gen.Kernel.Launch
import proofs.«135984_j44006234915015_2_alg».proof.Proof.Gen.Kernel.Points
import proofs.«135984_j44006234915015_2_alg».proof.Proof.Gen.Kernel.Frame
import proofs.«135984_j44006234915015_2_alg».proof.Proof.Gen.KernelIdeal
import proofs.«135984_j44006234915015_2_alg».proof.Proof.Gen.KernelIdeal.Skeleton
import proofs.«135984_j44006234915015_2_alg».proof.Proof.Gen.KernelIdeal.Launch
import proofs.«135984_j44006234915015_2_alg».proof.Proof.Gen.KernelIdeal.Points
import proofs.«135984_j44006234915015_2_alg».proof.Proof.Gen.KernelIdeal.Frame
import proofs.«135984_j44006234915015_2_alg».proof.Proof.Gen.ReferenceIdeal
import proofs.«135984_j44006234915015_2_alg».proof.Proof.Gen.Pre_finite_inputs
import proofs.«135984_j44006234915015_2_alg».proof.Proof.Gen.ReferenceIdeal.Run
import proofs.«135984_j44006234915015_2_alg».proof.Proof.Gen.ReferenceIdeal.Read
import proofs.«135984_j44006234915015_2_alg».proof.Proof.Spec
import proofs.«135984_j44006234915015_2_alg».proof.Proof.Algebra
import proofs.«135984_j44006234915015_2_alg».proof.Proof.RefSide
import proofs.«135984_j44006234915015_2_alg».proof.Proof.Finite
import proofs.«135984_j44006234915015_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs, and its arguments end unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- Over the extended reals, on finite inputs that agree, the kernel's result array ends at the projection
    arrangement of the result and the reference's at the Δ arrangement: one function of the arguments. -/
theorem algebraic : Cert.algebraic_KernelIdeal_ReferenceIdeal := by
  intro m ρ m' ρ' hpre hagree
  refine ⟨fun c => Cert.KernelIdeal.ResultValue.result m c, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2.1, (hagree c).2.2.2.1, (hagree c).2.2.2.2]
  show _ = Cert.KernelIdeal.ResultValue.result m c
  rw [Cert.KernelIdeal.ResultValue.result_eq]
  exact (Cert.LoraSpec.viaProj_eq_viaDelta _ _ _ _ _ _ (Cert.KernelIdeal.Finite.x_real m hpre c)
    (Cert.KernelIdeal.Finite.B_real m hpre c) (Cert.KernelIdeal.Finite.A_real m hpre c)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
